-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 18
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4096x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1, .f32⟩
  | .local _ .vmem, ⟨23, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_17 : BitVec 32 := 0#32
  let v30 : BitVec 1 := Scalar.cmpi .ne v29 c0_i32_17
  v30

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S4096x1024.size a
  hwx0_7 : ∀ i : grid0.Coords, EltTy.bits .bf16 = 32 ∨ (Rect.block (s := S4096x1024) S1024x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S4096x1024.size a
  hwx0_8 : ∀ i : grid0.Coords, EltTy.bits .bf16 = 32 ∨ (Rect.block (s := S4096x1024) S1024x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S4096x1024.size a
  hwx0_9 : ∀ i : grid0.Coords, EltTy.bits .bf16 = 32 ∨ (Rect.block (s := S4096x1024) S1024x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .bf16 = 32 ∨ (Rect.block (s := S4096x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .bf16 = 32 ∨ (Rect.block (s := S4096x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S1024x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v7_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x4096, .f32⟩
  | .hbm, ⟨41, _⟩ => ⟨S4096x4096, .f32⟩
  | .hbm, ⟨42, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.K.R0Data.lean ====
/-
  Region 0 (the three projections, one grid axis of 4 row blocks): what the pipeline's buffers hold.
  At grid point t the body reads row block t of the activations and the whole of each weight matrix and bias row,
  and leaves in the three output staging buffers the blocks  x_t · W + b  for W = Wq, Wk, Wv.
  Everything is stated at a parameter `V`: the contents of the core's buffers when the region is entered.
-/
import proofs.«133326_j50199577756108_2_alg».proof.Proof.Gen.Kernel.Launch
import proofs.«133326_j50199577756108_2_alg».proof.Proof.Gen.Kernel.Skeleton
import proofs.«133326_j50199577756108_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024×1024 rectangle and the whole 1×1024 rectangle: every access of the body is one of the two. -/
abbrev rM0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0

/-- The query block the body stores: one whole-buffer store of `x_t · Wq + bq`. -/
def out0_7 (x0 x1 : Vec F S1024x1024 .bf16) (x2 : Vec F S1x1024 .f32) : Vec F S1024x1024 .bf16 :=
  View.canon [⟨rM0, k0_pay2 (View.ld x0 rM0) (View.ld x1 rM0) (View.ld x2 rB0)⟩]
/-- The key block: `x_t · Wk + bk`. -/
def out0_8 (x0 x3 : Vec F S1024x1024 .bf16) (x4 : Vec F S1x1024 .f32) : Vec F S1024x1024 .bf16 :=
  View.canon [⟨rM0, k0_pay3 (View.ld x0 rM0) (View.ld x3 rM0) (View.ld x4 rB0)⟩]
/-- The value block: `x_t · Wv + bv`. -/
def out0_9 (x0 x5 : Vec F S1024x1024 .bf16) (x6 : Vec F S1x1024 .f32) : Vec F S1024x1024 .bf16 :=
  View.canon [⟨rM0, k0_pay4 (View.ld x0 rM0) (View.ld x5 rM0) (View.ld x6 rB0)⟩]

/-- The proof data of pipeline 0 on core `c`: the arrays as the region finds them; after the body at point `t` each
    input's buffer at its block and each output's at its projection block; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0_7 (iblk0 V c 0 t) (iblk0 V c 1 t) (iblk0 V c 2 t) := by dsimp only [dat0]
theorem after0_8 (c : Dev nD) (t : Fin cfg0.N) :
    (dat0 V c).after 8 t = out0_8 (iblk0 V c 0 t) (iblk0 V c 3 t) (iblk0 V c 4 t) := by dsimp only [dat0]
theorem after0_9 (c : Dev nD) (t : Fin cfg0.N) :
    (dat0 V c).after 9 t = out0_9 (iblk0 V c 0 t) (iblk0 V c 5 t) (iblk0 V c 6 t) := by dsimp only [dat0]

end Cert.Kernel.Hand

end
-- ==== Proof.K.R0.lean ====
/-
  Region 0 (the three projections): the body obligation.
  At every grid point the body, handed the activations' row block, the three weight matrices and the three bias rows
  in its staging buffers, leaves them as they were and fills the three output buffers with  x_t · W + b.
-/
import proofs.«133326_j50199577756108_2_alg».proof.Proof.K.R0Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not, for any proof
    data whose array is the entry contents and whose body leaves the block in place: unfetched, the block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- Each output's one store is the whole buffer, so it covers it. -/
theorem cover0 (p : Vec F S1024x1024 .bf16) (y : S1024x1024.Idx) :
    ∃ pc ∈ ([⟨rM0, p⟩] : List (View.Piece (Elt F) S1024x1024 .bf16)), y ∈ pc.1.set :=
  View.cover_of_tiled [⟨rM0, p⟩] S1024x1024.size (by rfl) y

set_option maxHeartbeats 1000000 in
/-- The body on whole staging memrefs, the inputs' at read contents and the outputs' at anything, runs to the
    continuation holding the inputs' as they were and each output's at its projection block of the inputs'. -/
theorem sound_kernel0 (c : Dev nD) (E : Set ℕ) (i : grid0.Coords) (arg1 : Memref sig .tc .vmem S1024x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole)
    (x0 x1 x3 x5 : Vec F S1024x1024 .bf16) (x2 x4 x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-- What the body is called with at point `t`: the invariant, what the core owes, and every window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns: the same invariant and debt, and every buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 3 t) (iblk0 V c 5 t) (iblk0 V c 2 t) (iblk0 V c 4 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the projection region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
/-
  Region 1 (the attention accumulation, a 4×4 grid: query block qi, key/value block ki, point t = 4·qi + ki):
  what the three case runs of the body share. The body zeroes the running sum l (1024×1) and the running
  accumulator (1024×1024) when ki = 0, adds  Σ_j exp(tanh(q·kᵀ)/32)  to l and  exp(tanh(q·kᵀ)/32) · v  to the
  accumulator at every point, and stores accumulator / l into the output block when ki = 3.
  Everything is stated at a parameter `V`: the contents of the core's buffers when the region is entered.
-/
import proofs.«133326_j50199577756108_2_alg».proof.Proof.Gen.Kernel.Launch
import proofs.«133326_j50199577756108_2_alg».proof.Proof.Gen.Kernel.Skeleton
import proofs.«133326_j50199577756108_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, fetched there (ki = 0) or not (the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the key window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the value window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (ki = 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (ki = 3), from the grid coordinates. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points with ki = 0 the output window is idle: nothing is stored into it, -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- The same at the points with ki = 1, 2. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the points with ki = 3 the output window is live: the body stores into it. -/
theorem liveAt1_3_C : ∀ t : Fin cfg1.N, ¬cond1_0 (grid1.coords t) → cond1_1 (grid1.coords t) → cfg1.idle 3 (grid1.coords t) = false := by decide +kernel

/-! ## The memrefs the body is called on -/

/-- One staging buffer of the output window, through which its contents are stated (the choice does not matter). -/
abbrev VO1_3 : View sig .tc .vmem S1024x1024 .f32 := (Memref.whole cc1_stg3_0 : Memref sig .tc .vmem S1024x1024 .f32).view
/-- Each window's current staging memref at point `t`, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The two scratch operands: the running sum and the running accumulator, whole scoped buffers. -/
abbrev scM1_0 : Memref sig .tc .vmem S1024x1 .f32 := Memref.whole cc1_scratch0
abbrev scM1_1 : Memref sig .tc .vmem S1024x1024 .f32 := Memref.whole cc1_scratch1
/-- The same as views: what they hold is stated through these. -/
abbrev VS1_0 : View sig .tc .vmem S1024x1 .f32 := scM1_0.view
abbrev VS1_1 : View sig .tc .vmem S1024x1024 .f32 := scM1_1.view

/-! ## The region's invariant before the first point -/

/-- The core's scoped buffers that are neither a staging buffer of this region nor one of its two scratch buffers
    (the other region's staging buffers), each whole at some contents. -/
def oth1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- What the launch hands the region: the other scoped buffers, the two scratch buffers owned at some contents,
    and the generator register at some state. -/
theorem PhiA1_eq (c : Dev nD) :
    (Pipeline.ΦA spec1 c : sProp 𝕄)
      = iprop(oth1 (F := F) c ∗ (∃ d, owns (c : Thread nD τ) scM1_0 fullShare d) ∗ (∃ d, owns (c : Thread nD τ) scM1_1 fullShare d) ∗ (∃ r, prngReg c r)) := by
  unfold Pipeline.ΦA; rw [scopedRest1_eq]; simp only [scM1_0, scM1_1, owns_whole]; unfold oth1
  refine BI.Entails.antisymm (show (_ : sProp 𝕄) ⊢ _ from ?_) (show (_ : sProp 𝕄) ⊢ _ from ?_)
  · iintro ⟨⟨R0, R1, R2, R3, R4, R5, R6, R7, R8, R9, R10, R11, R12, R13, HS0, HS1⟩, Hg⟩
    isplitl [R0 R1 R2 R3 R4 R5 R6 R7 R8 R9 R10 R11 R12 R13]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      iexact R13
    isplitl [HS0]; · iexact HS0
    isplitl [HS1]; · iexact HS1
    iexact Hg
  · iintro ⟨⟨R0, R1, R2, R3, R4, R5, R6, R7, R8, R9, R10, R11, R12, R13⟩, HS0, HS1, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [HS0]; · iexact HS0
      iexact HS1
    iexact Hg

end Cert.Kernel.Hand

end
-- ==== Proof.K.R1RunA.lean ====
/-
  Region 1: the whole body run at the grid points with ki = 0. Both scratch buffers are zeroed first, then the point's contribution is added; nothing is stored into the output block.
-/
import proofs.«133326_j50199577756108_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body's stores leave in the output's staging memref (none: the window is idle here) and in the two
    scratch memrefs when ki = 0, with the proof that on whole memrefs — the inputs at their blocks, the output at
    contents handed back untouched, the scratch buffers at anything (both are zeroed before they are read) — the
    body runs to the continuation holding the inputs as they were and each scratch buffer with its pieces written. -/
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 x1 x2 : Vec F S1024x1024 .bf16) :
    Σ' (L3 : List (View.Piece (Elt F) S1024x1024 .f32)), Σ' (LS0 : List (View.Piece (Elt F) S1024x1 .f32)), { LS1 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_attn_kernel i arg2 harg2 arg3 harg3 arg4 harg4 arg5 harg5 arg6 harg6 arg7 harg7) K } := by
  refine ⟨[], ?_, ?_, fun xi3 E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.R1RunB.lean ====
/-
  Region 1: the whole body run at the grid points with ki = 1, 2. The point's contribution is added to both scratch buffers over what the point before left; nothing is stored into the output block.
-/
import proofs.«133326_j50199577756108_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body's stores leave in the output's staging memref (none: the window is idle here) and in the two
    scratch memrefs when ki = 1, 2, with the proof that on whole memrefs — the inputs at their blocks, the output at
    contents handed back untouched, the scratch buffers at what the point before left (`xs0`, `xs1`) — the body
    runs to the continuation holding the inputs as they were and each scratch buffer with its pieces written. -/
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 x1 x2 : Vec F S1024x1024 .bf16) (xs0 : Vec F S1024x1 .f32) (xs1 : Vec F S1024x1024 .f32) :
    Σ' (L3 : List (View.Piece (Elt F) S1024x1024 .f32)), Σ' (LS0 : List (View.Piece (Elt F) S1024x1 .f32)), { LS1 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_attn_kernel i arg2 harg2 arg3 harg3 arg4 harg4 arg5 harg5 arg6 harg6 arg7 harg7) K } := by
  refine ⟨[], ?_, ?_, fun xi3 E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.R1RunC.lean ====
/-
  Region 1: the whole body run at the grid points with ki = 3. The point's contribution is added to both scratch buffers over what the point before left, and the accumulator divided by the running sum is stored into the output block.
-/
import proofs.«133326_j50199577756108_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body's stores leave in the output's staging memref and in the two scratch memrefs when ki = 3,
    with the proof that on whole memrefs — the inputs at their blocks, the output at anything, the scratch buffers
    at what the point before left (`xs0`, `xs1`) — the body runs to the continuation holding the inputs as they
    were and the output and each scratch buffer with its pieces written. -/
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 x1 x2 : Vec F S1024x1024 .bf16) (xs0 : Vec F S1024x1 .f32) (xs1 : Vec F S1024x1024 .f32) :
    Σ' (L3 : List (View.Piece (Elt F) S1024x1024 .f32)), Σ' (LS0 : List (View.Piece (Elt F) S1024x1 .f32)), { LS1 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_attn_kernel i arg2 harg2 arg3 harg3 arg4 harg4 arg5 harg5 arg6 harg6 arg7 harg7) K } := by
  refine ⟨?_, ?_, ?_, fun E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.K.R1.lean ====
/-
  Region 1 (the attention accumulation): what the output block and the two scratch buffers hold case by case and
  point by point, the proof data of the pipeline, and the body obligation: at every grid point the body, run on
  the windows' current staging buffers and the two scratch buffers, leaves each at what the proof data states.
-/
import proofs.«133326_j50199577756108_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- When ki = 0 the body stores nothing into the output block (the window is idle there and not written back):
    no pieces; a placeholder that nothing consults. -/
def out1_A_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 x1 x2 : Vec F S1024x1024 .bf16) : Vec F S1024x1024 .f32 :=
  VO1_3.read (Elt F) (VO1_3.writes (Elt F) VO1_3.junk (kernelRun1_A c i arg2 harg2 arg3 harg3 arg4 harg4 arg5 harg5 arg6 harg6 arg7 harg7 hc0 hc1 x0 x1 x2).1)

/-- When ki = 0 the pieces stored into the running sum cover it (each store is of the whole 1024×1 buffer). -/
theorem scover1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 x1 x2 : Vec F S1024x1024 .bf16) (y : S1024x1.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S1024x1.size (by sl_kernel_rfl) y

/-- What the body leaves in the running sum when ki = 0: its pieces read back. -/
def sout1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 x1 x2 : Vec F S1024x1024 .bf16) : Vec F S1024x1 .f32 :=
  VS1_0.read (Elt F) (VS1_0.writes (Elt F) VS1_0.junk (kernelRun1_A c i arg2 harg2 arg3 harg3 arg4 harg4 arg5 harg5 arg6 harg6 arg7 harg7 hc0 hc1 x0 x1 x2).2.1)

/-- When ki = 0 the pieces stored into the running accumulator cover it (each store is of the whole buffer). -/
theorem scover1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 x1 x2 : Vec F S1024x1024 .bf16) (y : S1024x1024.Idx) :
    ∃ pc ∈ (kernelRun1_A c i arg2 harg2 arg3 harg3 arg4 harg4 arg5 harg5 arg6 harg6 arg7 harg7 hc0 hc1 x0 x1 x2).2.2.1, y ∈ pc.1.set :=
  View.cover_of_tiledL (kernelRun1_A c i arg2 harg2 arg3 harg3 arg4 harg4 arg5 harg5 arg6 harg6 arg7 harg7 hc0 hc1 x0 x1 x2).2.2.1 S1024x1024.size (by sl_kernel_rfl) y

/-- What the body leaves in the running accumulator when ki = 0: its pieces read back. -/
def sout1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 x1 x2 : Vec F S1024x1024 .bf16) : Vec F S1024x1024 .f32 :=
  VS1_1.read (Elt F) (VS1_1.writes (Elt F) VS1_1.junk (kernelRun1_A c i arg2 harg2 arg3 harg3 arg4 harg4 arg5 harg5 arg6 harg6 arg7 harg7 hc0 hc1 x0 x1 x2).2.2.1)

/-- When ki = 1, 2 the body stores nothing into the output block (the window is idle there and not written back):
    no pieces; a placeholder that nothing consults. -/
def out1_B_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 x1 x2 : Vec F S1024x1024 .bf16) (xs0 : Vec F S1024x1 .f32) (xs1 : Vec F S1024x1024 .f32) : Vec F S1024x1024 .f32 :=
  VO1_3.read (Elt F) (VO1_3.writes (Elt F) VO1_3.junk (kernelRun1_B c i arg2 harg2 arg3 harg3 arg4 harg4 arg5 harg5 arg6 harg6 arg7 harg7 hc0 hc1 x0 x1 x2 xs0 xs1).1)

/-- When ki = 1, 2 the pieces stored into the running sum cover it (each store is of the whole 1024×1 buffer). -/
theorem scover1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 x1 x2 : Vec F S1024x1024 .bf16) (xs0 : Vec F S1024x1 .f32) (xs1 : Vec F S1024x1024 .f32) (y : S1024x1.Idx) :
    ∃ pc ∈ (kernelRun1_B c i arg2 harg2 arg3 harg3 arg4 harg4 arg5 harg5 arg6 harg6 arg7 harg7 hc0 hc1 x0 x1 x2 xs0 xs1).2.1, y ∈ pc.1.set :=
  View.cover_of_tiledL (kernelRun1_B c i arg2 harg2 arg3 harg3 arg4 harg4 arg5 harg5 arg6 harg6 arg7 harg7 hc0 hc1 x0 x1 x2 xs0 xs1).2.1 S1024x1.size (by sl_kernel_rfl) y

/-- What the body leaves in the running sum when ki = 1, 2: its pieces read back. -/
def sout1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 x1 x2 : Vec F S1024x1024 .bf16) (xs0 : Vec F S1024x1 .f32) (xs1 : Vec F S1024x1024 .f32) : Vec F S1024x1 .f32 :=
  VS1_0.read (Elt F) (VS1_0.writes (Elt F) VS1_0.junk (kernelRun1_B c i arg2 harg2 arg3 harg3 arg4 harg4 arg5 harg5 arg6 harg6 arg7 harg7 hc0 hc1 x0 x1 x2 xs0 xs1).2.1)

/-- When ki = 1, 2 the pieces stored into the running accumulator cover it (each store is of the whole buffer). -/
theorem scover1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 x1 x2 : Vec F S1024x1024 .bf16) (xs0 : Vec F S1024x1 .f32) (xs1 : Vec F S1024x1024 .f32) (y : S1024x1024.Idx) :
    ∃ pc ∈ (kernelRun1_B c i arg2 harg2 arg3 harg3 arg4 harg4 arg5 harg5 arg6 harg6 arg7 harg7 hc0 hc1 x0 x1 x2 xs0 xs1).2.2.1, y ∈ pc.1.set :=
  View.cover_of_tiledL (kernelRun1_B c i arg2 harg2 arg3 harg3 arg4 harg4 arg5 harg5 arg6 harg6 arg7 harg7 hc0 hc1 x0 x1 x2 xs0 xs1).2.2.1 S1024x1024.size (by sl_kernel_rfl) y

/-- What the body leaves in the running accumulator when ki = 1, 2: its pieces read back. -/
def sout1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 x1 x2 : Vec F S1024x1024 .bf16) (xs0 : Vec F S1024x1 .f32) (xs1 : Vec F S1024x1024 .f32) : Vec F S1024x1024 .f32 :=
  VS1_1.read (Elt F) (VS1_1.writes (Elt F) VS1_1.junk (kernelRun1_B c i arg2 harg2 arg3 harg3 arg4 harg4 arg5 harg5 arg6 harg6 arg7 harg7 hc0 hc1 x0 x1 x2 xs0 xs1).2.2.1)

/-- When ki = 3 the body's one store into the output block is of the whole block, so its pieces cover it. -/
theorem cover1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 x1 x2 : Vec F S1024x1024 .bf16) (xs0 : Vec F S1024x1 .f32) (xs1 : Vec F S1024x1024 .f32) (y : S1024x1024.Idx) :
    ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S1024x1024.size (by sl_kernel_rfl) y

/-- What the body leaves in the output's staging buffer when ki = 3: its pieces read back. -/
def out1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 x1 x2 : Vec F S1024x1024 .bf16) (xs0 : Vec F S1024x1 .f32) (xs1 : Vec F S1024x1024 .f32) : Vec F S1024x1024 .f32 :=
  VO1_3.read (Elt F) (VO1_3.writes (Elt F) VO1_3.junk (kernelRun1_C c i arg2 harg2 arg3 harg3 arg4 harg4 arg5 harg5 arg6 harg6 arg7 harg7 hc0 hc1 x0 x1 x2 xs0 xs1).1)

/-- When ki = 3 the pieces stored into the running sum cover it (each store is of the whole 1024×1 buffer). -/
theorem scover1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 x1 x2 : Vec F S1024x1024 .bf16) (xs0 : Vec F S1024x1 .f32) (xs1 : Vec F S1024x1024 .f32) (y : S1024x1.Idx) :
    ∃ pc ∈ (kernelRun1_C c i arg2 harg2 arg3 harg3 arg4 harg4 arg5 harg5 arg6 harg6 arg7 harg7 hc0 hc1 x0 x1 x2 xs0 xs1).2.1, y ∈ pc.1.set :=
  View.cover_of_tiledL (kernelRun1_C c i arg2 harg2 arg3 harg3 arg4 harg4 arg5 harg5 arg6 harg6 arg7 harg7 hc0 hc1 x0 x1 x2 xs0 xs1).2.1 S1024x1.size (by sl_kernel_rfl) y

/-- What the body leaves in the running sum when ki = 3: its pieces read back. -/
def sout1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 x1 x2 : Vec F S1024x1024 .bf16) (xs0 : Vec F S1024x1 .f32) (xs1 : Vec F S1024x1024 .f32) : Vec F S1024x1 .f32 :=
  VS1_0.read (Elt F) (VS1_0.writes (Elt F) VS1_0.junk (kernelRun1_C c i arg2 harg2 arg3 harg3 arg4 harg4 arg5 harg5 arg6 harg6 arg7 harg7 hc0 hc1 x0 x1 x2 xs0 xs1).2.1)

/-- When ki = 3 the pieces stored into the running accumulator cover it (each store is of the whole buffer). -/
theorem scover1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 x1 x2 : Vec F S1024x1024 .bf16) (xs0 : Vec F S1024x1 .f32) (xs1 : Vec F S1024x1024 .f32) (y : S1024x1024.Idx) :
    ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL (kernelRun1_C c i arg2 harg2 arg3 harg3 arg4 harg4 arg5 harg5 arg6 harg6 arg7 harg7 hc0 hc1 x0 x1 x2 xs0 xs1).2.2.1 S1024x1024.size (by sl_kernel_rfl) y

/-- What the body leaves in the running accumulator when ki = 3: its pieces read back. -/
def sout1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 x1 x2 : Vec F S1024x1024 .bf16) (xs0 : Vec F S1024x1 .f32) (xs1 : Vec F S1024x1024 .f32) : Vec F S1024x1024 .f32 :=
  VS1_1.read (Elt F) (VS1_1.writes (Elt F) VS1_1.junk (kernelRun1_C c i arg2 harg2 arg3 harg3 arg4 harg4 arg5 harg5 arg6 harg6 arg7 harg7 hc0 hc1 x0 x1 x2 xs0 xs1).2.2.1)

/-! ## What the output block and the two scratch buffers hold after each point -/

/-- The accumulation. What the output's staging buffer, the running sum and the running accumulator hold after the
    body at position `n`: the case the conditions select at `n`, run at the point's memrefs and input blocks, the two
    scratch buffers read (when ki ≠ 0) at what this leaves at `n - 1`. -/
def outsAt1 (c : Dev nD) : (n : ℕ) → n < cfg1.N → Vec F S1024x1024 .f32 × Vec F S1024x1 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- `outsAt1` at a point with ki = 0: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point with ki = 1, 2: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with ki = 3: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The region invariant before position `n`: before the first point what the launch hands over (each scratch
    buffer at anything); afterwards the other scoped buffers, the running sum and the running accumulator at what
    the point before left in them, and the generator register at some state. -/
def PhiS1 (c : Dev nD) : (n : ℕ) → n ≤ cfg1.N → sProp 𝕄
  | 0, _ => Pipeline.ΦA spec1 c
  | n + 1, hn => iprop(oth1 (F := F) c ∗ owns (c : Thread nD τ) scM1_0 fullShare ((outsAt1 V c n hn).2.1) ∗ owns (c : Thread nD τ) scM1_1 fullShare ((outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = iprop(oth1 (F := F) c ∗ owns (c : Thread nD τ) scM1_0 fullShare ((outsAt1 V c n hn).2.1) ∗ owns (c : Thread nD τ) scM1_1 fullShare ((outsAt1 V c n hn).2.2) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(oth1 (F := F) c ∗ owns (c : Thread nD τ) scM1_0 fullShare ((outsAt1 V c (n - 1) (by omega)).2.1) ∗ owns (c : Thread nD τ) scM1_1 fullShare ((outsAt1 V c (n - 1) (by omega)).2.2) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point's ki says which case it is in, and that
    case's run applies: the invariant hands the body the two scratch buffers at what the point before left (at
    anything before the first point), and takes them back at this point's contents, which the stored pieces cover;
    the output's buffer is handed back untouched unless ki = 3, when it is left at the stored block; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨Hoth, HS0, HS1, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨Hoth, HS0, HS1, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1; (try dsimp only)
      by_cases hz : t.val = 0
      · exfalso; omega
      · rw [PhiS1_castSucc V c t, PhiS1_pos V c _ _ hz]
        iintro ⟨⟨Hoth, HS0, HS1, Hg⟩, Ho, ⟨%d0, H0⟩, ⟨%d1, H1⟩, ⟨%d2, H2⟩, ⟨%d3, H3⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover1_C_0 c _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1; (try dsimp only)
      by_cases hz : t.val = 0
      · exfalso; omega
      · rw [PhiS1_castSucc V c t, PhiS1_pos V c _ _ hz]
        iintro ⟨⟨Hoth, HS0, HS1, Hg⟩, Ho, ⟨%d0, H0⟩, ⟨%d1, H1⟩, ⟨%d2, H2⟩, ⟨%d3, H3⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover1_B_0 c _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨Hoth, HS0, HS1, Hg⟩
  isplitl [Hoth]; · iexact Hoth
  isplitl [HS0]; · iexists _; iexact HS0
  isplitl [HS1]; · iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.K.Run.lean ====
/-
  The whole run of @main: the host conversions, then the projection pipeline, then the attention pipeline.
  The contents of the core's unscoped buffers are followed through the three segments: at launch; after the host
  operations; after the projections (their three output arrays at what the pipeline's write-backs leave, every other
  buffer as before); after the attention (its output array likewise). Every weakly fair execution terminates with each
  unscoped buffer at the last of these contents; no segment writes an argument array.
-/
import proofs.«133326_j50199577756108_2_alg».proof.Proof.K.R0
import proofs.«133326_j50199577756108_2_alg».proof.Proof.K.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations (the projections' entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projections: their arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host operation writes one and no pipeline stages one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at `W2`, left at `W3`; its invariant starts from and
    returns to the scoped rest with the scratch buffers at some contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) spec1 c) ⊢ (Pipeline.ΦA spec1 c : sProp 𝕄) := by
      unfold Pipeline.ΦA
      iintro ⟨Hp, -, Hr⟩
      isplitl [Hr]; · iexact Hr
      iexact Hp
    exact h.trans (hin1 (V2 m ρ) c)
  hout c := by
    rw [Pipeline.ownSems0_none]
    have h : (Pipeline.ΦA spec1 c : sProp 𝕄) ⊢ iprop((∃ r, prngReg c r) ∗ BI.emp
        ∗ Pipeline.scopedRest (Ix := Unit) (Name := ℕ) (U := UR sig nD τ) (Lvl := ℕ) spec1 c) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main terminates, nothing faulting, and in every final state each unscoped buffer
    of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

/-- The result array ends at what the attention pipeline's write-backs leave. -/
theorem result_eq (c : Dev nD) : W3 m ρ c (Proc.devRef .tc main_v8) = (dat1 (V2 m ρ) c).arrAt 3 cfg1.N :=
  W3_arr m ρ c 3

end Cert.Kernel.Hand

end
-- ==== Proof.KI.R0Data.lean ====
/-
  Region 0 (the three projections, one grid axis of 4 row blocks): what the pipeline's buffers hold.
  At grid point t the body reads row block t of the activations and the whole of each weight matrix and bias row,
  and leaves in the three output staging buffers the blocks  x_t · W + b  for W = Wq, Wk, Wv.
  Everything is stated at a parameter `V`: the contents of the core's buffers when the region is entered.
-/
import proofs.«133326_j50199577756108_2_alg».proof.Proof.Gen.KernelIdeal.Launch
import proofs.«133326_j50199577756108_2_alg».proof.Proof.Gen.KernelIdeal.Skeleton
import proofs.«133326_j50199577756108_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024×1024 rectangle and the whole 1×1024 rectangle: every access of the body is one of the two. -/
abbrev rM0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0

/-- The query block the body stores: one whole-buffer store of `x_t · Wq + bq`. -/
def out0_7 (x0 x1 : Vec F S1024x1024 .bf16) (x2 : Vec F S1x1024 .f32) : Vec F S1024x1024 .bf16 :=
  View.canon [⟨rM0, k0_pay2 (View.ld x0 rM0) (View.ld x1 rM0) (View.ld x2 rB0)⟩]
/-- The key block: `x_t · Wk + bk`. -/
def out0_8 (x0 x3 : Vec F S1024x1024 .bf16) (x4 : Vec F S1x1024 .f32) : Vec F S1024x1024 .bf16 :=
  View.canon [⟨rM0, k0_pay3 (View.ld x0 rM0) (View.ld x3 rM0) (View.ld x4 rB0)⟩]
/-- The value block: `x_t · Wv + bv`. -/
def out0_9 (x0 x5 : Vec F S1024x1024 .bf16) (x6 : Vec F S1x1024 .f32) : Vec F S1024x1024 .bf16 :=
  View.canon [⟨rM0, k0_pay4 (View.ld x0 rM0) (View.ld x5 rM0) (View.ld x6 rB0)⟩]

/-- The proof data of pipeline 0 on core `c`: the arrays as the region finds them; after the body at point `t` each
    input's buffer at its block and each output's at its projection block; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0_7 (iblk0 V c 0 t) (iblk0 V c 1 t) (iblk0 V c 2 t) := by dsimp only [dat0]
theorem after0_8 (c : Dev nD) (t : Fin cfg0.N) :
    (dat0 V c).after 8 t = out0_8 (iblk0 V c 0 t) (iblk0 V c 3 t) (iblk0 V c 4 t) := by dsimp only [dat0]
theorem after0_9 (c : Dev nD) (t : Fin cfg0.N) :
    (dat0 V c).after 9 t = out0_9 (iblk0 V c 0 t) (iblk0 V c 5 t) (iblk0 V c 6 t) := by dsimp only [dat0]

end Cert.KernelIdeal.Hand

end
-- ==== Proof.KI.R0.lean ====
/-
  Region 0 (the three projections): the body obligation.
  At every grid point the body, handed the activations' row block, the three weight matrices and the three bias rows
  in its staging buffers, leaves them as they were and fills the three output buffers with  x_t · W + b.
-/
import proofs.«133326_j50199577756108_2_alg».proof.Proof.KI.R0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not, for any proof
    data whose array is the entry contents and whose body leaves the block in place: unfetched, the block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- Each output's one store is the whole buffer, so it covers it. -/
theorem cover0 (p : Vec F S1024x1024 .bf16) (y : S1024x1024.Idx) :
    ∃ pc ∈ ([⟨rM0, p⟩] : List (View.Piece (Elt F) S1024x1024 .bf16)), y ∈ pc.1.set :=
  View.cover_of_tiled [⟨rM0, p⟩] S1024x1024.size (by rfl) y

set_option maxHeartbeats 1000000 in
/-- The body on whole staging memrefs, the inputs' at read contents and the outputs' at anything, runs to the
    continuation holding the inputs' as they were and each output's at its projection block of the inputs'. -/
theorem sound_kernel0 (c : Dev nD) (E : Set ℕ) (i : grid0.Coords) (arg1 : Memref sig .tc .vmem S1024x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole)
    (x0 x1 x3 x5 : Vec F S1024x1024 .bf16) (x2 x4 x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-- What the body is called with at point `t`: the invariant, what the core owes, and every window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns: the same invariant and debt, and every buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 3 t) (iblk0 V c 5 t) (iblk0 V c 2 t) (iblk0 V c 4 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the projection region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/-
  Region 1 (the attention accumulation, a 4×4 grid: query block qi, key/value block ki, point t = 4·qi + ki):
  what the three case runs of the body share. The body zeroes the running sum l (1024×1) and the running
  accumulator (1024×1024) when ki = 0, adds  Σ_j exp(tanh(q·kᵀ)/32)  to l and  exp(tanh(q·kᵀ)/32) · v  to the
  accumulator at every point, and stores accumulator / l into the output block when ki = 3.
  Everything is stated at a parameter `V`: the contents of the core's buffers when the region is entered.
-/
import proofs.«133326_j50199577756108_2_alg».proof.Proof.Gen.KernelIdeal.Launch
import proofs.«133326_j50199577756108_2_alg».proof.Proof.Gen.KernelIdeal.Skeleton
import proofs.«133326_j50199577756108_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, fetched there (ki = 0) or not (the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the key window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the value window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (ki = 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (ki = 3), from the grid coordinates. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points with ki = 0 the output window is idle: nothing is stored into it, -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- The same at the points with ki = 1, 2. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the points with ki = 3 the output window is live: the body stores into it. -/
theorem liveAt1_3_C : ∀ t : Fin cfg1.N, ¬cond1_0 (grid1.coords t) → cond1_1 (grid1.coords t) → cfg1.idle 3 (grid1.coords t) = false := by decide +kernel

/-! ## The memrefs the body is called on -/

/-- One staging buffer of the output window, through which its contents are stated (the choice does not matter). -/
abbrev VO1_3 : View sig .tc .vmem S1024x1024 .f32 := (Memref.whole cc1_stg3_0 : Memref sig .tc .vmem S1024x1024 .f32).view
/-- Each window's current staging memref at point `t`, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The two scratch operands: the running sum and the running accumulator, whole scoped buffers. -/
abbrev scM1_0 : Memref sig .tc .vmem S1024x1 .f32 := Memref.whole cc1_scratch0
abbrev scM1_1 : Memref sig .tc .vmem S1024x1024 .f32 := Memref.whole cc1_scratch1
/-- The same as views: what they hold is stated through these. -/
abbrev VS1_0 : View sig .tc .vmem S1024x1 .f32 := scM1_0.view
abbrev VS1_1 : View sig .tc .vmem S1024x1024 .f32 := scM1_1.view

/-! ## The region's invariant before the first point -/

/-- The core's scoped buffers that are neither a staging buffer of this region nor one of its two scratch buffers
    (the other region's staging buffers), each whole at some contents. -/
def oth1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- What the launch hands the region: the other scoped buffers, the two scratch buffers owned at some contents,
    and the generator register at some state. -/
theorem PhiA1_eq (c : Dev nD) :
    (Pipeline.ΦA spec1 c : sProp 𝕄)
      = iprop(oth1 (F := F) c ∗ (∃ d, owns (c : Thread nD τ) scM1_0 fullShare d) ∗ (∃ d, owns (c : Thread nD τ) scM1_1 fullShare d) ∗ (∃ r, prngReg c r)) := by
  unfold Pipeline.ΦA; rw [scopedRest1_eq]; simp only [scM1_0, scM1_1, owns_whole]; unfold oth1
  refine BI.Entails.antisymm (show (_ : sProp 𝕄) ⊢ _ from ?_) (show (_ : sProp 𝕄) ⊢ _ from ?_)
  · iintro ⟨⟨R0, R1, R2, R3, R4, R5, R6, R7, R8, R9, R10, R11, R12, R13, HS0, HS1⟩, Hg⟩
    isplitl [R0 R1 R2 R3 R4 R5 R6 R7 R8 R9 R10 R11 R12 R13]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      iexact R13
    isplitl [HS0]; · iexact HS0
    isplitl [HS1]; · iexact HS1
    iexact Hg
  · iintro ⟨⟨R0, R1, R2, R3, R4, R5, R6, R7, R8, R9, R10, R11, R12, R13⟩, HS0, HS1, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [HS0]; · iexact HS0
      iexact HS1
    iexact Hg

end Cert.KernelIdeal.Hand

end
-- ==== Proof.KI.R1RunA.lean ====
/-
  Region 1: the whole body run at the grid points with ki = 0. Both scratch buffers are zeroed first, then the point's contribution is added; nothing is stored into the output block.
-/
import proofs.«133326_j50199577756108_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body's stores leave in the output's staging memref (none: the window is idle here) and in the two
    scratch memrefs when ki = 0, with the proof that on whole memrefs — the inputs at their blocks, the output at
    contents handed back untouched, the scratch buffers at anything (both are zeroed before they are read) — the
    body runs to the continuation holding the inputs as they were and each scratch buffer with its pieces written. -/
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 x1 x2 : Vec F S1024x1024 .bf16) :
    Σ' (L3 : List (View.Piece (Elt F) S1024x1024 .f32)), Σ' (LS0 : List (View.Piece (Elt F) S1024x1 .f32)), { LS1 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_attn_kernel i arg2 harg2 arg3 harg3 arg4 harg4 arg5 harg5 arg6 harg6 arg7 harg7) K } := by
  refine ⟨[], ?_, ?_, fun xi3 E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.R1RunB.lean ====
/-
  Region 1: the whole body run at the grid points with ki = 1, 2. The point's contribution is added to both scratch buffers over what the point before left; nothing is stored into the output block.
-/
import proofs.«133326_j50199577756108_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body's stores leave in the output's staging memref (none: the window is idle here) and in the two
    scratch memrefs when ki = 1, 2, with the proof that on whole memrefs — the inputs at their blocks, the output at
    contents handed back untouched, the scratch buffers at what the point before left (`xs0`, `xs1`) — the body
    runs to the continuation holding the inputs as they were and each scratch buffer with its pieces written. -/
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 x1 x2 : Vec F S1024x1024 .bf16) (xs0 : Vec F S1024x1 .f32) (xs1 : Vec F S1024x1024 .f32) :
    Σ' (L3 : List (View.Piece (Elt F) S1024x1024 .f32)), Σ' (LS0 : List (View.Piece (Elt F) S1024x1 .f32)), { LS1 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_attn_kernel i arg2 harg2 arg3 harg3 arg4 harg4 arg5 harg5 arg6 harg6 arg7 harg7) K } := by
  refine ⟨[], ?_, ?_, fun xi3 E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.R1RunC.lean ====
/-
  Region 1: the whole body run at the grid points with ki = 3. The point's contribution is added to both scratch buffers over what the point before left, and the accumulator divided by the running sum is stored into the output block.
-/
import proofs.«133326_j50199577756108_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body's stores leave in the output's staging memref and in the two scratch memrefs when ki = 3,
    with the proof that on whole memrefs — the inputs at their blocks, the output at anything, the scratch buffers
    at what the point before left (`xs0`, `xs1`) — the body runs to the continuation holding the inputs as they
    were and the output and each scratch buffer with its pieces written. -/
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 x1 x2 : Vec F S1024x1024 .bf16) (xs0 : Vec F S1024x1 .f32) (xs1 : Vec F S1024x1024 .f32) :
    Σ' (L3 : List (View.Piece (Elt F) S1024x1024 .f32)), Σ' (LS0 : List (View.Piece (Elt F) S1024x1 .f32)), { LS1 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1_attn_kernel i arg2 harg2 arg3 harg3 arg4 harg4 arg5 harg5 arg6 harg6 arg7 harg7) K } := by
  refine ⟨?_, ?_, ?_, fun E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.KI.R1.lean ====
/-
  Region 1 (the attention accumulation): what the output block and the two scratch buffers hold case by case and
  point by point, the proof data of the pipeline, and the body obligation: at every grid point the body, run on
  the windows' current staging buffers and the two scratch buffers, leaves each at what the proof data states.
-/
import proofs.«133326_j50199577756108_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- When ki = 0 the body stores nothing into the output block (the window is idle there and not written back):
    no pieces; a placeholder that nothing consults. -/
def out1_A_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 x1 x2 : Vec F S1024x1024 .bf16) : Vec F S1024x1024 .f32 :=
  VO1_3.read (Elt F) (VO1_3.writes (Elt F) VO1_3.junk (kernelRun1_A c i arg2 harg2 arg3 harg3 arg4 harg4 arg5 harg5 arg6 harg6 arg7 harg7 hc0 hc1 x0 x1 x2).1)

/-- When ki = 0 the pieces stored into the running sum cover it (each store is of the whole 1024×1 buffer). -/
theorem scover1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 x1 x2 : Vec F S1024x1024 .bf16) (y : S1024x1.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S1024x1.size (by sl_kernel_rfl) y

/-- What the body leaves in the running sum when ki = 0: its pieces read back. -/
def sout1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 x1 x2 : Vec F S1024x1024 .bf16) : Vec F S1024x1 .f32 :=
  VS1_0.read (Elt F) (VS1_0.writes (Elt F) VS1_0.junk (kernelRun1_A c i arg2 harg2 arg3 harg3 arg4 harg4 arg5 harg5 arg6 harg6 arg7 harg7 hc0 hc1 x0 x1 x2).2.1)

/-- When ki = 0 the pieces stored into the running accumulator cover it (each store is of the whole buffer). -/
theorem scover1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 x1 x2 : Vec F S1024x1024 .bf16) (y : S1024x1024.Idx) :
    ∃ pc ∈ (kernelRun1_A c i arg2 harg2 arg3 harg3 arg4 harg4 arg5 harg5 arg6 harg6 arg7 harg7 hc0 hc1 x0 x1 x2).2.2.1, y ∈ pc.1.set :=
  View.cover_of_tiledL (kernelRun1_A c i arg2 harg2 arg3 harg3 arg4 harg4 arg5 harg5 arg6 harg6 arg7 harg7 hc0 hc1 x0 x1 x2).2.2.1 S1024x1024.size (by sl_kernel_rfl) y

/-- What the body leaves in the running accumulator when ki = 0: its pieces read back. -/
def sout1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i)
    (x0 x1 x2 : Vec F S1024x1024 .bf16) : Vec F S1024x1024 .f32 :=
  VS1_1.read (Elt F) (VS1_1.writes (Elt F) VS1_1.junk (kernelRun1_A c i arg2 harg2 arg3 harg3 arg4 harg4 arg5 harg5 arg6 harg6 arg7 harg7 hc0 hc1 x0 x1 x2).2.2.1)

/-- When ki = 1, 2 the body stores nothing into the output block (the window is idle there and not written back):
    no pieces; a placeholder that nothing consults. -/
def out1_B_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 x1 x2 : Vec F S1024x1024 .bf16) (xs0 : Vec F S1024x1 .f32) (xs1 : Vec F S1024x1024 .f32) : Vec F S1024x1024 .f32 :=
  VO1_3.read (Elt F) (VO1_3.writes (Elt F) VO1_3.junk (kernelRun1_B c i arg2 harg2 arg3 harg3 arg4 harg4 arg5 harg5 arg6 harg6 arg7 harg7 hc0 hc1 x0 x1 x2 xs0 xs1).1)

/-- When ki = 1, 2 the pieces stored into the running sum cover it (each store is of the whole 1024×1 buffer). -/
theorem scover1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 x1 x2 : Vec F S1024x1024 .bf16) (xs0 : Vec F S1024x1 .f32) (xs1 : Vec F S1024x1024 .f32) (y : S1024x1.Idx) :
    ∃ pc ∈ (kernelRun1_B c i arg2 harg2 arg3 harg3 arg4 harg4 arg5 harg5 arg6 harg6 arg7 harg7 hc0 hc1 x0 x1 x2 xs0 xs1).2.1, y ∈ pc.1.set :=
  View.cover_of_tiledL (kernelRun1_B c i arg2 harg2 arg3 harg3 arg4 harg4 arg5 harg5 arg6 harg6 arg7 harg7 hc0 hc1 x0 x1 x2 xs0 xs1).2.1 S1024x1.size (by sl_kernel_rfl) y

/-- What the body leaves in the running sum when ki = 1, 2: its pieces read back. -/
def sout1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 x1 x2 : Vec F S1024x1024 .bf16) (xs0 : Vec F S1024x1 .f32) (xs1 : Vec F S1024x1024 .f32) : Vec F S1024x1 .f32 :=
  VS1_0.read (Elt F) (VS1_0.writes (Elt F) VS1_0.junk (kernelRun1_B c i arg2 harg2 arg3 harg3 arg4 harg4 arg5 harg5 arg6 harg6 arg7 harg7 hc0 hc1 x0 x1 x2 xs0 xs1).2.1)

/-- When ki = 1, 2 the pieces stored into the running accumulator cover it (each store is of the whole buffer). -/
theorem scover1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 x1 x2 : Vec F S1024x1024 .bf16) (xs0 : Vec F S1024x1 .f32) (xs1 : Vec F S1024x1024 .f32) (y : S1024x1024.Idx) :
    ∃ pc ∈ (kernelRun1_B c i arg2 harg2 arg3 harg3 arg4 harg4 arg5 harg5 arg6 harg6 arg7 harg7 hc0 hc1 x0 x1 x2 xs0 xs1).2.2.1, y ∈ pc.1.set :=
  View.cover_of_tiledL (kernelRun1_B c i arg2 harg2 arg3 harg3 arg4 harg4 arg5 harg5 arg6 harg6 arg7 harg7 hc0 hc1 x0 x1 x2 xs0 xs1).2.2.1 S1024x1024.size (by sl_kernel_rfl) y

/-- What the body leaves in the running accumulator when ki = 1, 2: its pieces read back. -/
def sout1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i)
    (x0 x1 x2 : Vec F S1024x1024 .bf16) (xs0 : Vec F S1024x1 .f32) (xs1 : Vec F S1024x1024 .f32) : Vec F S1024x1024 .f32 :=
  VS1_1.read (Elt F) (VS1_1.writes (Elt F) VS1_1.junk (kernelRun1_B c i arg2 harg2 arg3 harg3 arg4 harg4 arg5 harg5 arg6 harg6 arg7 harg7 hc0 hc1 x0 x1 x2 xs0 xs1).2.2.1)

/-- When ki = 3 the body's one store into the output block is of the whole block, so its pieces cover it. -/
theorem cover1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 x1 x2 : Vec F S1024x1024 .bf16) (xs0 : Vec F S1024x1 .f32) (xs1 : Vec F S1024x1024 .f32) (y : S1024x1024.Idx) :
    ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S1024x1024.size (by sl_kernel_rfl) y

/-- What the body leaves in the output's staging buffer when ki = 3: its pieces read back. -/
def out1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 x1 x2 : Vec F S1024x1024 .bf16) (xs0 : Vec F S1024x1 .f32) (xs1 : Vec F S1024x1024 .f32) : Vec F S1024x1024 .f32 :=
  VO1_3.read (Elt F) (VO1_3.writes (Elt F) VO1_3.junk (kernelRun1_C c i arg2 harg2 arg3 harg3 arg4 harg4 arg5 harg5 arg6 harg6 arg7 harg7 hc0 hc1 x0 x1 x2 xs0 xs1).1)

/-- When ki = 3 the pieces stored into the running sum cover it (each store is of the whole 1024×1 buffer). -/
theorem scover1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 x1 x2 : Vec F S1024x1024 .bf16) (xs0 : Vec F S1024x1 .f32) (xs1 : Vec F S1024x1024 .f32) (y : S1024x1.Idx) :
    ∃ pc ∈ (kernelRun1_C c i arg2 harg2 arg3 harg3 arg4 harg4 arg5 harg5 arg6 harg6 arg7 harg7 hc0 hc1 x0 x1 x2 xs0 xs1).2.1, y ∈ pc.1.set :=
  View.cover_of_tiledL (kernelRun1_C c i arg2 harg2 arg3 harg3 arg4 harg4 arg5 harg5 arg6 harg6 arg7 harg7 hc0 hc1 x0 x1 x2 xs0 xs1).2.1 S1024x1.size (by sl_kernel_rfl) y

/-- What the body leaves in the running sum when ki = 3: its pieces read back. -/
def sout1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 x1 x2 : Vec F S1024x1024 .bf16) (xs0 : Vec F S1024x1 .f32) (xs1 : Vec F S1024x1024 .f32) : Vec F S1024x1 .f32 :=
  VS1_0.read (Elt F) (VS1_0.writes (Elt F) VS1_0.junk (kernelRun1_C c i arg2 harg2 arg3 harg3 arg4 harg4 arg5 harg5 arg6 harg6 arg7 harg7 hc0 hc1 x0 x1 x2 xs0 xs1).2.1)

/-- When ki = 3 the pieces stored into the running accumulator cover it (each store is of the whole buffer). -/
theorem scover1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 x1 x2 : Vec F S1024x1024 .bf16) (xs0 : Vec F S1024x1 .f32) (xs1 : Vec F S1024x1024 .f32) (y : S1024x1024.Idx) :
    ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL (kernelRun1_C c i arg2 harg2 arg3 harg3 arg4 harg4 arg5 harg5 arg6 harg6 arg7 harg7 hc0 hc1 x0 x1 x2 xs0 xs1).2.2.1 S1024x1024.size (by sl_kernel_rfl) y

/-- What the body leaves in the running accumulator when ki = 3: its pieces read back. -/
def sout1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i)
    (x0 x1 x2 : Vec F S1024x1024 .bf16) (xs0 : Vec F S1024x1 .f32) (xs1 : Vec F S1024x1024 .f32) : Vec F S1024x1024 .f32 :=
  VS1_1.read (Elt F) (VS1_1.writes (Elt F) VS1_1.junk (kernelRun1_C c i arg2 harg2 arg3 harg3 arg4 harg4 arg5 harg5 arg6 harg6 arg7 harg7 hc0 hc1 x0 x1 x2 xs0 xs1).2.2.1)

/-! ## What the output block and the two scratch buffers hold after each point -/

/-- The accumulation. What the output's staging buffer, the running sum and the running accumulator hold after the
    body at position `n`: the case the conditions select at `n`, run at the point's memrefs and input blocks, the two
    scratch buffers read (when ki ≠ 0) at what this leaves at `n - 1`. -/
def outsAt1 (c : Dev nD) : (n : ℕ) → n < cfg1.N → Vec F S1024x1024 .f32 × Vec F S1024x1 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- `outsAt1` at a point with ki = 0: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point with ki = 1, 2: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with ki = 3: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The region invariant before position `n`: before the first point what the launch hands over (each scratch
    buffer at anything); afterwards the other scoped buffers, the running sum and the running accumulator at what
    the point before left in them, and the generator register at some state. -/
def PhiS1 (c : Dev nD) : (n : ℕ) → n ≤ cfg1.N → sProp 𝕄
  | 0, _ => Pipeline.ΦA spec1 c
  | n + 1, hn => iprop(oth1 (F := F) c ∗ owns (c : Thread nD τ) scM1_0 fullShare ((outsAt1 V c n hn).2.1) ∗ owns (c : Thread nD τ) scM1_1 fullShare ((outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = iprop(oth1 (F := F) c ∗ owns (c : Thread nD τ) scM1_0 fullShare ((outsAt1 V c n hn).2.1) ∗ owns (c : Thread nD τ) scM1_1 fullShare ((outsAt1 V c n hn).2.2) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(oth1 (F := F) c ∗ owns (c : Thread nD τ) scM1_0 fullShare ((outsAt1 V c (n - 1) (by omega)).2.1) ∗ owns (c : Thread nD τ) scM1_1 fullShare ((outsAt1 V c (n - 1) (by omega)).2.2) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point's ki says which case it is in, and that
    case's run applies: the invariant hands the body the two scratch buffers at what the point before left (at
    anything before the first point), and takes them back at this point's contents, which the stored pieces cover;
    the output's buffer is handed back untouched unless ki = 3, when it is left at the stored block; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨Hoth, HS0, HS1, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨Hoth, HS0, HS1, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1; (try dsimp only)
      by_cases hz : t.val = 0
      · exfalso; omega
      · rw [PhiS1_castSucc V c t, PhiS1_pos V c _ _ hz]
        iintro ⟨⟨Hoth, HS0, HS1, Hg⟩, Ho, ⟨%d0, H0⟩, ⟨%d1, H1⟩, ⟨%d2, H2⟩, ⟨%d3, H3⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover1_C_0 c _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1; (try dsimp only)
      by_cases hz : t.val = 0
      · exfalso; omega
      · rw [PhiS1_castSucc V c t, PhiS1_pos V c _ _ hz]
        iintro ⟨⟨Hoth, HS0, HS1, Hg⟩, Ho, ⟨%d0, H0⟩, ⟨%d1, H1⟩, ⟨%d2, H2⟩, ⟨%d3, H3⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover1_B_0 c _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨Hoth, HS0, HS1, Hg⟩
  isplitl [Hoth]; · iexact Hoth
  isplitl [HS0]; · iexists _; iexact HS0
  isplitl [HS1]; · iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KI.Run.lean ====
/-
  The whole run of @main: the host conversions, then the projection pipeline, then the attention pipeline.
  The contents of the core's unscoped buffers are followed through the three segments: at launch; after the host
  operations; after the projections (their three output arrays at what the pipeline's write-backs leave, every other
  buffer as before); after the attention (its output array likewise). Every weakly fair execution terminates with each
  unscoped buffer at the last of these contents; no segment writes an argument array.
-/
import proofs.«133326_j50199577756108_2_alg».proof.Proof.KI.R0
import proofs.«133326_j50199577756108_2_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations (the projections' entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projections: their arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host operation writes one and no pipeline stages one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at `W2`, left at `W3`; its invariant starts from and
    returns to the scoped rest with the scratch buffers at some contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) spec1 c) ⊢ (Pipeline.ΦA spec1 c : sProp 𝕄) := by
      unfold Pipeline.ΦA
      iintro ⟨Hp, -, Hr⟩
      isplitl [Hr]; · iexact Hr
      iexact Hp
    exact h.trans (hin1 (V2 m ρ) c)
  hout c := by
    rw [Pipeline.ownSems0_none]
    have h : (Pipeline.ΦA spec1 c : sProp 𝕄) ⊢ iprop((∃ r, prngReg c r) ∗ BI.emp
        ∗ Pipeline.scopedRest (Ix := Unit) (Name := ℕ) (U := UR sig nD τ) (Lvl := ℕ) spec1 c) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main terminates, nothing faulting, and in every final state each unscoped buffer
    of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

/-- The result array ends at what the attention pipeline's write-backs leave. -/
theorem result_eq (c : Dev nD) : W3 m ρ c (Proc.devRef .tc main_v8) = (dat1 (V2 m ρ) c).arrAt 3 cfg1.N :=
  W3_arr m ρ c 3

end Cert.KernelIdeal.Hand

end
-- ==== Proof.Spec.lean ====
/-
  The function both programs compute, index by index, on the extended reals.

  With Q = x·Wq + bq, K = x·Wk + bk, V = x·Wv + bv (rows r, j < 4096; columns d, e < 1024),
  the weight of key row j for query row r is  w(r, j) = exp (tanh (∑ e, Q r e · K j e) · 2⁻⁵),
  and the result is the weighted mean of the rows of V,
      out (r, d) = (∑ j, w (r, j) · V j d) / (∑ j, w (r, j)).
  The softmax's subtraction of a row maximum cancels between numerator and denominator, and 2⁻⁵ = 1 / √1024.
-/
import Idealize.ShloMosaic.PureOps.Ideal
import Idealize.ShloMosaic.Lib.ValueIdx

noncomputable section

open scoped BigOperators

namespace Cert.Attn

open Idealize.ShloMosaic Idealize.ShloMosaic.ValueIdx

/-- The shapes of the arguments: the activations, a weight matrix, a bias. -/
abbrev SX : Shape := ⟨2, ![4096, 1024]⟩
abbrev SW : Shape := ⟨2, ![1024, 1024]⟩
abbrev SB : Shape := ⟨1, ![1024]⟩

/-- One linear projection at row `r`, column `d`: `(x · W) r d + b d`. -/
def proj (x : SX.Idx → EReal) (W : SW.Idx → EReal) (b : SB.Idx → EReal) (r : Fin 4096) (d : Fin 1024) : EReal :=
  (∑ e : Fin 1024, x (ix2 r e) * W (ix2 e d)) + b (ix1 d)

/-- The score scale `2⁻⁵`, as the binary32 word the kernel carries. -/
def scale : EReal := Ideal.ofBits .f32 0x3D000000#32

/-- The unnormalized attention weight of key row `j` for query row `r`. -/
def wgt (Q K : Fin 4096 → Fin 1024 → EReal) (r j : Fin 4096) : EReal :=
  Ideal.exp (Ideal.tanh (∑ e : Fin 1024, Q r e * K j e) * scale)

/-- The attention output at row `r`, column `d`: the weighted sum of `V`'s rows over the sum of the weights. -/
def attn (Q K V : Fin 4096 → Fin 1024 → EReal) (r : Fin 4096) (d : Fin 1024) : EReal :=
  Ideal.div (∑ j : Fin 4096, wgt Q K r j * V j d) (∑ j : Fin 4096, wgt Q K r j)

/-- The whole result as one function of the seven argument arrays. -/
def G (x : SX.Idx → EReal) (Wq : SW.Idx → EReal) (bq : SB.Idx → EReal) (Wk : SW.Idx → EReal) (bk : SB.Idx → EReal)
    (Wv : SW.Idx → EReal) (bv : SB.Idx → EReal) : SX.Idx → EReal :=
  fun i => attn (proj x Wq bq) (proj x Wk bk) (proj x Wv bv) (i 0) (i 1)

end Cert.Attn

end
-- ==== Proof.KI.ValueLemmasDot.lean ====
/-
  The two matrix products of the kernels, read entry by entry on the extended reals.
  Into a zero accumulator a product is just the sum over the contracted axis: rows times columns for
  x · W and p · v, rows times rows for q · kᵀ.
-/
import proofs.«133326_j50199577756108_2_alg».proof.Proof.Gen.KernelIdeal.Launch
import proofs.«133326_j50199577756108_2_alg».proof.Proof.Gen.KernelIdeal.Skeleton
import proofs.«133326_j50199577756108_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws
import proofs.«133326_j50199577756108_2_alg».proof.Proof.Spec

set_option maxRecDepth 16384

noncomputable section

namespace Cert.KernelIdeal.HandValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## Rows times columns: the operand indices, coordinate by coordinate -/

theorem rc_lhs0 (i : S1024x1024.Idx) (k : dot_S1024x1024_S1024x1024_S1024x1024_1_0_0_1_n_n.contr.Idx) : (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem rc_lhs1 (i : S1024x1024.Idx) (k : dot_S1024x1024_S1024x1024_S1024x1024_1_0_0_1_n_n.contr.Idx) : (dot_S1024x1024_S1024x1024_S1024x1024_1_0_0_1_n_n.lhsIdx i k 1).val = (k ⟨0, by decide⟩).val :=
  dot_S1024x1024_S1024x1024_S1024x1024_1_0_0_1_n_n.lhsIdx_val_of_single rfl i k
theorem rc_rhs1 (i : S1024x1024.Idx) (k : dot_S1024x1024_S1024x1024_S1024x1024_1_0_0_1_n_n.contr.Idx) : (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl
theorem rc_rhs0 (i : S1024x1024.Idx) (k : dot_S1024x1024_S1024x1024_S1024x1024_1_0_0_1_n_n.contr.Idx) : (dot_S1024x1024_S1024x1024_S1024x1024_1_0_0_1_n_n.rhsIdx i k 0).val = (k ⟨0, by decide⟩).val :=
  dot_S1024x1024_S1024x1024_S1024x1024_1_0_0_1_n_n.rhsIdx_val_of_single rfl i k

/-- Rows times columns: entry (p, q) of a · b is ∑ e, a (p, e) · b (e, q). -/
theorem matmul_rows_cols (a b : FVec Ideal S1024x1024 .bf16) (p q : Fin 1024) :
    matmul dot_S1024x1024_S1024x1024_S1024x1024_1_0_0_1_n_n none a b (constant S1024x1024 .f32 0x00000000#32) (ix2 p q)
      = ∑ e : Fin 1024, a (ix2 p e) * b (ix2 e q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun ax => Fin.ext (by
    match ax with
    | ⟨0, _⟩ => exact rc_lhs0 _ _
    | ⟨1, _⟩ => exact (rc_lhs1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun ax => Fin.ext (by
    match ax with
    | ⟨0, _⟩ => exact (rc_rhs0 _ _).trans hk
    | ⟨1, _⟩ => exact rc_rhs1 _ _)
  rw [el, er]

/-! ## Rows times rows -/

theorem rr_lhs0 (i : S1024x1024.Idx) (k : dot_S1024x1024_S1024x1024_S1024x1024_1_1_0_0_n_n.contr.Idx) : (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem rr_lhs1 (i : S1024x1024.Idx) (k : dot_S1024x1024_S1024x1024_S1024x1024_1_1_0_0_n_n.contr.Idx) : (dot_S1024x1024_S1024x1024_S1024x1024_1_1_0_0_n_n.lhsIdx i k 1).val = (k ⟨0, by decide⟩).val :=
  dot_S1024x1024_S1024x1024_S1024x1024_1_1_0_0_n_n.lhsIdx_val_of_single rfl i k
theorem rr_rhs0 (i : S1024x1024.Idx) (k : dot_S1024x1024_S1024x1024_S1024x1024_1_1_0_0_n_n.contr.Idx) : (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rr_rhs1 (i : S1024x1024.Idx) (k : dot_S1024x1024_S1024x1024_S1024x1024_1_1_0_0_n_n.contr.Idx) : (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- Rows times rows: entry (p, q) of a · bᵀ is ∑ e, a (p, e) · b (q, e). -/
theorem matmul_rows_rows (a b : FVec Ideal S1024x1024 .bf16) (p q : Fin 1024) :
    matmul dot_S1024x1024_S1024x1024_S1024x1024_1_1_0_0_n_n none a b (constant S1024x1024 .f32 0x00000000#32) (ix2 p q)
      = ∑ e : Fin 1024, a (ix2 p e) * b (ix2 q e) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun ax => Fin.ext (by
    match ax with
    | ⟨0, _⟩ => exact rr_lhs0 _ _
    | ⟨1, _⟩ => exact (rr_lhs1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun ax => Fin.ext (by
    match ax with
    | ⟨0, _⟩ => exact rr_rhs0 _ _
    | ⟨1, _⟩ => exact (rr_rhs1 _ _).trans hk)
  rw [el, er]

end Cert.KernelIdeal.HandValue

end
-- ==== Proof.KI.Value0.lean ====
/-
  Region 0 at the ideal values: the three arrays the projection kernel leaves are x · W + b.
  Point t of the grid holds row block t of the activations (rows 1024·t … 1024·t + 1023) and the whole of each
  weight matrix and bias row; the body's one store per output is the block's product plus the bias row, entry by
  entry a sum over the 1024 contracted columns; the four write-backs tile the 4096 rows.
-/
import proofs.«133326_j50199577756108_2_alg».proof.Proof.Gen.KernelIdeal.Launch
import proofs.«133326_j50199577756108_2_alg».proof.Proof.Gen.KernelIdeal.Skeleton
import proofs.«133326_j50199577756108_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws
import proofs.«133326_j50199577756108_2_alg».proof.Proof.Spec
import proofs.«133326_j50199577756108_2_alg».proof.Proof.KI.R0Data
import proofs.«133326_j50199577756108_2_alg».proof.Proof.KI.ValueLemmasDot
set_option maxRecDepth 16384

noncomputable section

namespace Cert.KernelIdeal.HandValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.ValueIdx

variable {F : FTy → Type} [FloatOps F]

local notation "𝕄" => MT nD τ sig Unit (Elt F) ℕ (UR sig nD τ) ℕ

/-- A bias as the 1 × 1024 array the kernel stages. -/
abbrev SB2 : Shape := ⟨2, ![1, 1024]⟩

theorem hz2 : (![0, 0] : Fin 2 → Nat) = fun _ => 0 := funext fun a => by fin_cases a <;> rfl

/-! ## One entry of the block the body stores -/

/-- Entry (p, q) of the stored block: row p of the activation block times column q of the weights, plus the bias at q. -/
theorem proj_entry (x0 w : Vec Ideal S1024x1024 .bf16) (bb : Vec Ideal S1x1024 .f32) (p q : Fin 1024) :
    k0_pay2 x0 w bb (ix2 p q) = (∑ e : Fin 1024, x0 (ix2 p e) * w (ix2 e q)) + bb (ix2 (0 : Fin 1) q) := by
  unfold k0_pay2 k0_pay1
  dsimp only
  simp only [shapeCast_self]
  rw [truncf_apply, addf_apply, matmul_rows_cols, broadcastTo_1b_ab_apply]

/-- The same entry when the blocks are known as pieces of the arrays: row r of x, the whole of W and of b. -/
theorem proj_block_entry (x0 w : Vec Ideal S1024x1024 .bf16) (bb : Vec Ideal S1x1024 .f32)
    (x : Cert.Attn.SX.Idx → EReal) (W : Cert.Attn.SW.Idx → EReal) (b : SB2.Idx → EReal) (p q : Fin 1024) (r : Fin 4096)
    (hx0 : ∀ e : Fin 1024, x0 (ix2 p e) = x (ix2 r e)) (hw : ∀ e : Fin 1024, w (ix2 e q) = W (ix2 e q))
    (hbb : bb (ix2 (0 : Fin 1) q) = b (ix2 (0 : Fin 1) q)) :
    k0_pay2 x0 w bb (ix2 p q) = Cert.Attn.proj x W (fun j => b (ix2 0 (j 0))) r q := by
  rw [proj_entry]
  unfold Cert.Attn.proj
  rw [hbb]
  refine congrArg (· + b (ix2 (0 : Fin 1) q)) (Finset.sum_congr rfl fun e _ => ?_)
  rw [hx0 e, hw e]

/-! ## The blocks as pieces of the arrays -/

section Blocks
variable (V : (c : Dev nD) → (b : Ref sig .tc) → Buf (Elt F) ((c : Thread nD τ).loc b))

/-- The block index of the activations and of the three outputs at point t is (t, 0). -/
theorem idx0_out : ∀ t : Fin cfg0.N, win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)
theorem idx0_x : ∀ t : Fin cfg0.N, win0_0.index t (0 : Fin 2) = t.val ∧ win0_0.index t (1 : Fin 2) = 0 :=
  (by decide +kernel : ∀ t : Fin grid0.N, _)
/-- The weight and bias windows never move. -/
theorem idx0_whole : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row p of the activation block at point t is row 1024·t + p of the activations. -/
theorem iblk0_0_apply (c : Dev nD) (t : Fin cfg0.N) (p e : Fin 1024) (r : Fin 4096) (hr : r.val = 1024 * t.val + p.val) :
    (iblk0 V c 0 t : S1024x1024.Idx → Elt F _) (ix2 p e) = (V c main_v0 : S4096x1024.Idx → Elt F _) (ix2 r e) := by
  obtain ⟨h0, h1⟩ := idx0_x t
  unfold iblk0
  rw [View.read_apply]
  show V c main_v0 _ = V c main_v0 _
  refine congrArg (V c main_v0) (funext fun a => Fin.ext ?_)
  match a with
  | ⟨0, _⟩ => show win0_0.index t (0 : Fin 2) * 1024 + 1 * p.val = r.val; rw [h0, hr]; omega
  | ⟨1, _⟩ => show win0_0.index t (1 : Fin 2) * 1024 + 1 * e.val = e.val; rw [h1]; omega

/-- Window 1's block at every point is its whole array. -/
theorem iblk0_1_eq (c : Dev nD) (t : Fin cfg0.N) : (iblk0 V c 1 t : S1024x1024.Idx → Elt F _) = V c main_v1 := by
  have hw := idx0_whole t
  funext y
  unfold iblk0
  rw [View.read_apply]
  show V c main_v1 _ = V c main_v1 y
  refine congrArg (V c main_v1) (funext fun a => Fin.ext ?_)
  match a with
  | ⟨0, _⟩ => show win0_1.index t (0 : Fin 2) * 1024 + 1 * (y 0).val = (y 0).val; rw [hw.1]; omega
  | ⟨1, _⟩ => show win0_1.index t (1 : Fin 2) * 1024 + 1 * (y 1).val = (y 1).val; rw [hw.2.1]; omega

/-- Window 2's block at every point is its whole array. -/
theorem iblk0_2_eq (c : Dev nD) (t : Fin cfg0.N) : (iblk0 V c 2 t : S1x1024.Idx → Elt F _) = V c main_v4 := by
  have hw := idx0_whole t
  funext y
  unfold iblk0
  rw [View.read_apply]
  show V c main_v4 _ = V c main_v4 y
  refine congrArg (V c main_v4) (funext fun a => Fin.ext ?_)
  match a with
  | ⟨0, _⟩ => show win0_2.index t (0 : Fin 2) * 1 + 1 * (y 0).val = (y 0).val; rw [hw.2.2.1]; omega
  | ⟨1, _⟩ => show win0_2.index t (1 : Fin 2) * 1024 + 1 * (y 1).val = (y 1).val; rw [hw.2.2.2.1]; omega

/-- Window 3's block at every point is its whole array. -/
theorem iblk0_3_eq (c : Dev nD) (t : Fin cfg0.N) : (iblk0 V c 3 t : S1024x1024.Idx → Elt F _) = V c main_v2 := by
  have hw := idx0_whole t
  funext y
  unfold iblk0
  rw [View.read_apply]
  show V c main_v2 _ = V c main_v2 y
  refine congrArg (V c main_v2) (funext fun a => Fin.ext ?_)
  match a with
  | ⟨0, _⟩ => show win0_3.index t (0 : Fin 2) * 1024 + 1 * (y 0).val = (y 0).val; rw [hw.2.2.2.2.1]; omega
  | ⟨1, _⟩ => show win0_3.index t (1 : Fin 2) * 1024 + 1 * (y 1).val = (y 1).val; rw [hw.2.2.2.2.2.1]; omega

/-- Window 4's block at every point is its whole array. -/
theorem iblk0_4_eq (c : Dev nD) (t : Fin cfg0.N) : (iblk0 V c 4 t : S1x1024.Idx → Elt F _) = V c main_v5 := by
  have hw := idx0_whole t
  funext y
  unfold iblk0
  rw [View.read_apply]
  show V c main_v5 _ = V c main_v5 y
  refine congrArg (V c main_v5) (funext fun a => Fin.ext ?_)
  match a with
  | ⟨0, _⟩ => show win0_4.index t (0 : Fin 2) * 1 + 1 * (y 0).val = (y 0).val; rw [hw.2.2.2.2.2.2.1]; omega
  | ⟨1, _⟩ => show win0_4.index t (1 : Fin 2) * 1024 + 1 * (y 1).val = (y 1).val; rw [hw.2.2.2.2.2.2.2.1]; omega

/-- Window 5's block at every point is its whole array. -/
theorem iblk0_5_eq (c : Dev nD) (t : Fin cfg0.N) : (iblk0 V c 5 t : S1024x1024.Idx → Elt F _) = V c main_v3 := by
  have hw := idx0_whole t
  funext y
  unfold iblk0
  rw [View.read_apply]
  show V c main_v3 _ = V c main_v3 y
  refine congrArg (V c main_v3) (funext fun a => Fin.ext ?_)
  match a with
  | ⟨0, _⟩ => show win0_5.index t (0 : Fin 2) * 1024 + 1 * (y 0).val = (y 0).val; rw [hw.2.2.2.2.2.2.2.2.1]; omega
  | ⟨1, _⟩ => show win0_5.index t (1 : Fin 2) * 1024 + 1 * (y 1).val = (y 1).val; rw [hw.2.2.2.2.2.2.2.2.2.1]; omega

/-- Window 6's block at every point is its whole array. -/
theorem iblk0_6_eq (c : Dev nD) (t : Fin cfg0.N) : (iblk0 V c 6 t : S1x1024.Idx → Elt F _) = V c main_v6 := by
  have hw := idx0_whole t
  funext y
  unfold iblk0
  rw [View.read_apply]
  show V c main_v6 _ = V c main_v6 y
  refine congrArg (V c main_v6) (funext fun a => Fin.ext ?_)
  match a with
  | ⟨0, _⟩ => show win0_6.index t (0 : Fin 2) * 1 + 1 * (y 0).val = (y 0).val; rw [hw.2.2.2.2.2.2.2.2.2.2.1]; omega
  | ⟨1, _⟩ => show win0_6.index t (1 : Fin 2) * 1024 + 1 * (y 1).val = (y 1).val; rw [hw.2.2.2.2.2.2.2.2.2.2.2]; omega

end Blocks

variable (V : (c : Dev nD) → (b : Ref sig .tc) → Buf (Elt Ideal) ((c : Thread nD τ).loc b))

/-! ## The write-backs, the cover, the arrays -/

/-- Point t writes back row block t of the projection (output window 7). -/
theorem flushed0_7 (c : Dev nD) (x : Cert.Attn.SX.Idx → EReal) (W : Cert.Attn.SW.Idx → EReal) (b : SB2.Idx → EReal)
    (hx : V c main_v0 = x) (hW : V c main_v1 = W) (hb : V c main_v4 = b) (t : Fin cfg0.N) :
    (dat0 (F := Ideal) V c).flushed 7 t
      = ((cfg0.win 7).blk t).view.read (Elt Ideal) (fun i => Cert.Attn.proj x W (fun j => b (ix2 0 (j 0))) (i 0) (i 1)) := by
  have hN : cfg0.N = 4 := N_0
  have ht : t.val < 4 := hN ▸ t.isLt
  have ho := idx0_out t
  show (cfg0.win 7).cut (grid0.coords t) ((dat0 V c).after 7 t) = _
  rw [after0_7]
  unfold out0_7
  rw [View.canon_unit_zero hz2]
  simp only [View.ld_unit_zero (S := S1024x1024) hz2, View.ld_unit_zero (S := S1x1024) hz2]
  funext y
  obtain ⟨p, q, rfl⟩ : ∃ (p q : Fin 1024), y = ix2 p q := ⟨y 0, y 1, eq_ix2 y⟩
  have hi : ((cfg0.win 7).blk t).view.emb (ix2 p q) = (ix2 (⟨1024 * t.val + p.val, by omega⟩ : Fin 4096) q : S4096x1024.Idx) :=
    funext fun a => Fin.ext (by
      match a with
      | ⟨0, _⟩ => show win0_7.index t (0 : Fin 2) * 1024 + 1 * p.val = 1024 * t.val + p.val; rw [ho.1]; omega
      | ⟨1, _⟩ => show win0_7.index t (1 : Fin 2) * 1024 + 1 * q.val = q.val; rw [ho.2.1]; omega)
  show k0_pay2 (iblk0 V c 0 t) (iblk0 V c 1 t) (iblk0 V c 2 t) (ix2 p q)
    = Cert.Attn.proj x W (fun j => b (ix2 0 (j 0))) ((((cfg0.win 7).blk t).view.emb (ix2 p q)) 0) ((((cfg0.win 7).blk t).view.emb (ix2 p q)) 1)
  rw [hi]
  show _ = Cert.Attn.proj x W (fun j => b (ix2 0 (j 0))) (⟨1024 * t.val + p.val, by omega⟩ : Fin 4096) q
  refine proj_block_entry (iblk0 V c 0 t) (iblk0 V c 1 t) (iblk0 V c 2 t) x W b p q _ (fun e => ?_) (fun e => ?_) ?_
  · exact (iblk0_0_apply V c t p e _ rfl).trans (congrFun hx _)
  · exact (congrFun (iblk0_1_eq V c t) (ix2 e q)).trans (congrFun hW _)
  · exact (congrFun (iblk0_2_eq V c t) (ix2 (0 : Fin 1) q)).trans (congrFun hb _)

/-- An index is in point t's block of output 7 iff its row is in block t. -/
theorem mem_blk0_7 (t : Fin cfg0.N) (i : S4096x1024.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v7_0).slice (win0_7.rect t)).set ↔ _
  rw [View.set_slice_whole, Rect.mem_set_unit]
  exact Iff.rfl

/-- Every row lies in the block of the point r / 1024, and every point writes back. -/
theorem cover0_7 (i : S4096x1024.Idx) : ∃ t : Fin cfg0.N, (cfg0.win 7).flush t = true ∧ i ∈ ((cfg0.win 7).blk t).view.set := by
  have hN : cfg0.N = 4 := N_0
  have hi0 : (i 0).val < 4096 := (i 0).isLt
  have hi1 : (i 1).val < 1024 := (i 1).isLt
  refine ⟨⟨(i 0).val / 1024, by rw [hN]; omega⟩, flush0_7 _, ?_⟩
  rw [mem_blk0_7]
  have ho := idx0_out ⟨(i 0).val / 1024, by rw [hN]; omega⟩
  intro a
  match a with
  | ⟨0, _⟩ =>
    show win0_7.index _ (0 : Fin 2) * 1024 ≤ (i 0).val ∧ (i 0).val < win0_7.index _ (0 : Fin 2) * 1024 + 1024
    rw [ho.1]; dsimp only; omega
  | ⟨1, _⟩ =>
    show win0_7.index _ (1 : Fin 2) * 1024 ≤ (i 1).val ∧ (i 1).val < win0_7.index _ (1 : Fin 2) * 1024 + 1024
    rw [ho.2.1]; omega

/-- The array window 7 leaves: the projection of the activations by this weight matrix and bias. -/
theorem arr0_7 (c : Dev nD) (x : Cert.Attn.SX.Idx → EReal) (W : Cert.Attn.SW.Idx → EReal) (b : SB2.Idx → EReal)
    (hx : V c main_v0 = x) (hW : V c main_v1 = W) (hb : V c main_v4 = b) :
    (dat0 (F := Ideal) V c).arrAt 7 cfg0.N = fun i => Cert.Attn.proj x W (fun j => b (ix2 0 (j 0))) (i 0) (i 1) :=
  (dat0 (F := Ideal) V c).arrAt_eq_of_cover 7 _ (fun t _ => flushed0_7 V c x W b hx hW hb t) cover0_7

/-- Point t writes back row block t of the projection (output window 8). -/
theorem flushed0_8 (c : Dev nD) (x : Cert.Attn.SX.Idx → EReal) (W : Cert.Attn.SW.Idx → EReal) (b : SB2.Idx → EReal)
    (hx : V c main_v0 = x) (hW : V c main_v2 = W) (hb : V c main_v5 = b) (t : Fin cfg0.N) :
    (dat0 (F := Ideal) V c).flushed 8 t
      = ((cfg0.win 8).blk t).view.read (Elt Ideal) (fun i => Cert.Attn.proj x W (fun j => b (ix2 0 (j 0))) (i 0) (i 1)) := by
  have hN : cfg0.N = 4 := N_0
  have ht : t.val < 4 := hN ▸ t.isLt
  have ho := idx0_out t
  show (cfg0.win 8).cut (grid0.coords t) ((dat0 V c).after 8 t) = _
  rw [after0_8]
  unfold out0_8
  rw [View.canon_unit_zero hz2]
  simp only [View.ld_unit_zero (S := S1024x1024) hz2, View.ld_unit_zero (S := S1x1024) hz2]
  funext y
  obtain ⟨p, q, rfl⟩ : ∃ (p q : Fin 1024), y = ix2 p q := ⟨y 0, y 1, eq_ix2 y⟩
  have hi : ((cfg0.win 8).blk t).view.emb (ix2 p q) = (ix2 (⟨1024 * t.val + p.val, by omega⟩ : Fin 4096) q : S4096x1024.Idx) :=
    funext fun a => Fin.ext (by
      match a with
      | ⟨0, _⟩ => show win0_8.index t (0 : Fin 2) * 1024 + 1 * p.val = 1024 * t.val + p.val; rw [ho.2.2.1]; omega
      | ⟨1, _⟩ => show win0_8.index t (1 : Fin 2) * 1024 + 1 * q.val = q.val; rw [ho.2.2.2.1]; omega)
  show k0_pay2 (iblk0 V c 0 t) (iblk0 V c 3 t) (iblk0 V c 4 t) (ix2 p q)
    = Cert.Attn.proj x W (fun j => b (ix2 0 (j 0))) ((((cfg0.win 8).blk t).view.emb (ix2 p q)) 0) ((((cfg0.win 8).blk t).view.emb (ix2 p q)) 1)
  rw [hi]
  show _ = Cert.Attn.proj x W (fun j => b (ix2 0 (j 0))) (⟨1024 * t.val + p.val, by omega⟩ : Fin 4096) q
  refine proj_block_entry (iblk0 V c 0 t) (iblk0 V c 3 t) (iblk0 V c 4 t) x W b p q _ (fun e => ?_) (fun e => ?_) ?_
  · exact (iblk0_0_apply V c t p e _ rfl).trans (congrFun hx _)
  · exact (congrFun (iblk0_3_eq V c t) (ix2 e q)).trans (congrFun hW _)
  · exact (congrFun (iblk0_4_eq V c t) (ix2 (0 : Fin 1) q)).trans (congrFun hb _)

/-- An index is in point t's block of output 8 iff its row is in block t. -/
theorem mem_blk0_8 (t : Fin cfg0.N) (i : S4096x1024.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v7_1).slice (win0_8.rect t)).set ↔ _
  rw [View.set_slice_whole, Rect.mem_set_unit]
  exact Iff.rfl

/-- Every row lies in the block of the point r / 1024, and every point writes back. -/
theorem cover0_8 (i : S4096x1024.Idx) : ∃ t : Fin cfg0.N, (cfg0.win 8).flush t = true ∧ i ∈ ((cfg0.win 8).blk t).view.set := by
  have hN : cfg0.N = 4 := N_0
  have hi0 : (i 0).val < 4096 := (i 0).isLt
  have hi1 : (i 1).val < 1024 := (i 1).isLt
  refine ⟨⟨(i 0).val / 1024, by rw [hN]; omega⟩, flush0_8 _, ?_⟩
  rw [mem_blk0_8]
  have ho := idx0_out ⟨(i 0).val / 1024, by rw [hN]; omega⟩
  intro a
  match a with
  | ⟨0, _⟩ =>
    show win0_8.index _ (0 : Fin 2) * 1024 ≤ (i 0).val ∧ (i 0).val < win0_8.index _ (0 : Fin 2) * 1024 + 1024
    rw [ho.2.2.1]; dsimp only; omega
  | ⟨1, _⟩ =>
    show win0_8.index _ (1 : Fin 2) * 1024 ≤ (i 1).val ∧ (i 1).val < win0_8.index _ (1 : Fin 2) * 1024 + 1024
    rw [ho.2.2.2.1]; omega

/-- The array window 8 leaves: the projection of the activations by this weight matrix and bias. -/
theorem arr0_8 (c : Dev nD) (x : Cert.Attn.SX.Idx → EReal) (W : Cert.Attn.SW.Idx → EReal) (b : SB2.Idx → EReal)
    (hx : V c main_v0 = x) (hW : V c main_v2 = W) (hb : V c main_v5 = b) :
    (dat0 (F := Ideal) V c).arrAt 8 cfg0.N = fun i => Cert.Attn.proj x W (fun j => b (ix2 0 (j 0))) (i 0) (i 1) :=
  (dat0 (F := Ideal) V c).arrAt_eq_of_cover 8 _ (fun t _ => flushed0_8 V c x W b hx hW hb t) cover0_8

/-- Point t writes back row block t of the projection (output window 9). -/
theorem flushed0_9 (c : Dev nD) (x : Cert.Attn.SX.Idx → EReal) (W : Cert.Attn.SW.Idx → EReal) (b : SB2.Idx → EReal)
    (hx : V c main_v0 = x) (hW : V c main_v3 = W) (hb : V c main_v6 = b) (t : Fin cfg0.N) :
    (dat0 (F := Ideal) V c).flushed 9 t
      = ((cfg0.win 9).blk t).view.read (Elt Ideal) (fun i => Cert.Attn.proj x W (fun j => b (ix2 0 (j 0))) (i 0) (i 1)) := by
  have hN : cfg0.N = 4 := N_0
  have ht : t.val < 4 := hN ▸ t.isLt
  have ho := idx0_out t
  show (cfg0.win 9).cut (grid0.coords t) ((dat0 V c).after 9 t) = _
  rw [after0_9]
  unfold out0_9
  rw [View.canon_unit_zero hz2]
  simp only [View.ld_unit_zero (S := S1024x1024) hz2, View.ld_unit_zero (S := S1x1024) hz2]
  funext y
  obtain ⟨p, q, rfl⟩ : ∃ (p q : Fin 1024), y = ix2 p q := ⟨y 0, y 1, eq_ix2 y⟩
  have hi : ((cfg0.win 9).blk t).view.emb (ix2 p q) = (ix2 (⟨1024 * t.val + p.val, by omega⟩ : Fin 4096) q : S4096x1024.Idx) :=
    funext fun a => Fin.ext (by
      match a with
      | ⟨0, _⟩ => show win0_9.index t (0 : Fin 2) * 1024 + 1 * p.val = 1024 * t.val + p.val; rw [ho.2.2.2.2.1]; omega
      | ⟨1, _⟩ => show win0_9.index t (1 : Fin 2) * 1024 + 1 * q.val = q.val; rw [ho.2.2.2.2.2]; omega)
  show k0_pay2 (iblk0 V c 0 t) (iblk0 V c 5 t) (iblk0 V c 6 t) (ix2 p q)
    = Cert.Attn.proj x W (fun j => b (ix2 0 (j 0))) ((((cfg0.win 9).blk t).view.emb (ix2 p q)) 0) ((((cfg0.win 9).blk t).view.emb (ix2 p q)) 1)
  rw [hi]
  show _ = Cert.Attn.proj x W (fun j => b (ix2 0 (j 0))) (⟨1024 * t.val + p.val, by omega⟩ : Fin 4096) q
  refine proj_block_entry (iblk0 V c 0 t) (iblk0 V c 5 t) (iblk0 V c 6 t) x W b p q _ (fun e => ?_) (fun e => ?_) ?_
  · exact (iblk0_0_apply V c t p e _ rfl).trans (congrFun hx _)
  · exact (congrFun (iblk0_5_eq V c t) (ix2 e q)).trans (congrFun hW _)
  · exact (congrFun (iblk0_6_eq V c t) (ix2 (0 : Fin 1) q)).trans (congrFun hb _)

/-- An index is in point t's block of output 9 iff its row is in block t. -/
theorem mem_blk0_9 (t : Fin cfg0.N) (i : S4096x1024.Idx) :
    i ∈ ((cfg0.win 9).blk t).view.set ↔ ∀ a : Fin 2, win0_9.index t a * S1024x1024.size a ≤ (i a).val ∧ (i a).val < win0_9.index t a * S1024x1024.size a + S1024x1024.size a := by
  show i ∈ ((View.whole main_v7_2).slice (win0_9.rect t)).set ↔ _
  rw [View.set_slice_whole, Rect.mem_set_unit]
  exact Iff.rfl

/-- Every row lies in the block of the point r / 1024, and every point writes back. -/
theorem cover0_9 (i : S4096x1024.Idx) : ∃ t : Fin cfg0.N, (cfg0.win 9).flush t = true ∧ i ∈ ((cfg0.win 9).blk t).view.set := by
  have hN : cfg0.N = 4 := N_0
  have hi0 : (i 0).val < 4096 := (i 0).isLt
  have hi1 : (i 1).val < 1024 := (i 1).isLt
  refine ⟨⟨(i 0).val / 1024, by rw [hN]; omega⟩, flush0_9 _, ?_⟩
  rw [mem_blk0_9]
  have ho := idx0_out ⟨(i 0).val / 1024, by rw [hN]; omega⟩
  intro a
  match a with
  | ⟨0, _⟩ =>
    show win0_9.index _ (0 : Fin 2) * 1024 ≤ (i 0).val ∧ (i 0).val < win0_9.index _ (0 : Fin 2) * 1024 + 1024
    rw [ho.2.2.2.2.1]; dsimp only; omega
  | ⟨1, _⟩ =>
    show win0_9.index _ (1 : Fin 2) * 1024 ≤ (i 1).val ∧ (i 1).val < win0_9.index _ (1 : Fin 2) * 1024 + 1024
    rw [ho.2.2.2.2.2]; omega

/-- The array window 9 leaves: the projection of the activations by this weight matrix and bias. -/
theorem arr0_9 (c : Dev nD) (x : Cert.Attn.SX.Idx → EReal) (W : Cert.Attn.SW.Idx → EReal) (b : SB2.Idx → EReal)
    (hx : V c main_v0 = x) (hW : V c main_v3 = W) (hb : V c main_v6 = b) :
    (dat0 (F := Ideal) V c).arrAt 9 cfg0.N = fun i => Cert.Attn.proj x W (fun j => b (ix2 0 (j 0))) (i 0) (i 1) :=
  (dat0 (F := Ideal) V c).arrAt_eq_of_cover 9 _ (fun t _ => flushed0_9 V c x W b hx hW hb t) cover0_9

end Cert.KernelIdeal.HandValue

end
-- ==== Proof.KI.ValuePieces1.lean ====
/-
  Region 1: what the attention body leaves in its two carried buffers and in the output block, as the body's
  arithmetic applied to the blocks.
  At a point with ki = 0 the running row sums and the running accumulator are zeroed and then updated, so they hold
  the update of zero; at the other points they hold the update of what the point before left; at ki = 3 the output
  block is the updated accumulator over the updated row sums. Stated for any float instance.
-/
import proofs.«133326_j50199577756108_2_alg».proof.Proof.Gen.KernelIdeal.Launch
import proofs.«133326_j50199577756108_2_alg».proof.Proof.Gen.KernelIdeal.Skeleton
import proofs.«133326_j50199577756108_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws
import proofs.«133326_j50199577756108_2_alg».proof.Proof.Spec
import proofs.«133326_j50199577756108_2_alg».proof.Proof.KI.R1
set_option maxRecDepth 16384

noncomputable section

namespace Cert.KernelIdeal.HandValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hzP : (![0, 0] : Fin 2 → Nat) = fun _ => 0 := funext fun a => by fin_cases a <;> rfl

/-! ## Each case's stores, read back -/

/-- ki = 0, the row sums: zeroed, read back, updated. -/
theorem sumA (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i) (x0 x1 x2 : Vec F S1024x1024 .bf16) :
    sout1_A_0 c i arg2 harg2 arg3 harg3 arg4 harg4 arg5 harg5 arg6 harg6 arg7 harg7 hc0 hc1 x0 x1 x2 = k1_pay4 x0 x1 k1_pay1 := by
  unfold sout1_A_0
  rw [View.read_writes_eq_canon _ _ _ (scover1_A_0 c i arg2 harg2 arg3 harg3 arg4 harg4 arg5 harg5 arg6 harg6 arg7 harg7 hc0 hc1 x0 x1 x2)]
  unfold kernelRun1_A
  dsimp only
  try sl_unfold_words
  rw [View.canon_cons_unit_zero (S := S1024x1) hzP, View.readCov_unit_zero (S := S1024x1) _ hzP]
  simp only [View.readAt_eq_ld, harg2.read_unread, harg3.read_unread, harg4.read_unread, harg6.read_unread, harg7.read_unread, View.ld_unit_zero (S := S1024x1024) hzP, View.ld_unit_zero (S := S1024x1) hzP]

/-- ki = 0, the accumulator: zeroed, read back, updated. -/
theorem accA (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : cond1_0 i) (hc1 : ¬cond1_1 i) (x0 x1 x2 : Vec F S1024x1024 .bf16) :
    sout1_A_1 c i arg2 harg2 arg3 harg3 arg4 harg4 arg5 harg5 arg6 harg6 arg7 harg7 hc0 hc1 x0 x1 x2 = k1_pay5 x0 x1 x2 k1_pay2 := by
  unfold sout1_A_1
  rw [View.read_writes_eq_canon _ _ _ (scover1_A_1 c i arg2 harg2 arg3 harg3 arg4 harg4 arg5 harg5 arg6 harg6 arg7 harg7 hc0 hc1 x0 x1 x2)]
  unfold kernelRun1_A
  dsimp only
  try sl_unfold_words
  rw [View.canon_cons_unit_zero (S := S1024x1024) hzP, View.readCov_unit_zero (S := S1024x1024) _ hzP]
  simp only [View.readAt_eq_ld, harg2.read_unread, harg3.read_unread, harg4.read_unread, harg6.read_unread, harg7.read_unread, View.ld_unit_zero (S := S1024x1024) hzP, View.ld_unit_zero (S := S1024x1) hzP]

/-- ki = 1, 2, the row sums: what the point before left, updated. -/
theorem sumB (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i) (x0 x1 x2 : Vec F S1024x1024 .bf16) (xs0 : Vec F S1024x1 .f32) (xs1 : Vec F S1024x1024 .f32) :
    sout1_B_0 c i arg2 harg2 arg3 harg3 arg4 harg4 arg5 harg5 arg6 harg6 arg7 harg7 hc0 hc1 x0 x1 x2 xs0 xs1 = k1_pay4 x0 x1 xs0 := by
  unfold sout1_B_0
  rw [View.read_writes_eq_canon _ _ _ (scover1_B_0 c i arg2 harg2 arg3 harg3 arg4 harg4 arg5 harg5 arg6 harg6 arg7 harg7 hc0 hc1 x0 x1 x2 xs0 xs1)]
  unfold kernelRun1_B
  dsimp only
  try sl_unfold_words
  rw [View.canon_unit_zero (S := S1024x1) hzP]
  simp only [View.readAt_eq_ld, harg2.read_unread, harg3.read_unread, harg4.read_unread, harg6.read_unread, harg7.read_unread, View.ld_unit_zero (S := S1024x1024) hzP, View.ld_unit_zero (S := S1024x1) hzP]

/-- ki = 1, 2, the accumulator: what the point before left, updated. -/
theorem accB (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : ¬cond1_1 i) (x0 x1 x2 : Vec F S1024x1024 .bf16) (xs0 : Vec F S1024x1 .f32) (xs1 : Vec F S1024x1024 .f32) :
    sout1_B_1 c i arg2 harg2 arg3 harg3 arg4 harg4 arg5 harg5 arg6 harg6 arg7 harg7 hc0 hc1 x0 x1 x2 xs0 xs1 = k1_pay5 x0 x1 x2 xs1 := by
  unfold sout1_B_1
  rw [View.read_writes_eq_canon _ _ _ (scover1_B_1 c i arg2 harg2 arg3 harg3 arg4 harg4 arg5 harg5 arg6 harg6 arg7 harg7 hc0 hc1 x0 x1 x2 xs0 xs1)]
  unfold kernelRun1_B
  dsimp only
  try sl_unfold_words
  rw [View.canon_unit_zero (S := S1024x1024) hzP]
  simp only [View.readAt_eq_ld, harg2.read_unread, harg3.read_unread, harg4.read_unread, harg6.read_unread, harg7.read_unread, View.ld_unit_zero (S := S1024x1024) hzP, View.ld_unit_zero (S := S1024x1) hzP]

/-- ki = 3, the row sums: updated as at ki = 1, 2. -/
theorem sumC (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i) (x0 x1 x2 : Vec F S1024x1024 .bf16) (xs0 : Vec F S1024x1 .f32) (xs1 : Vec F S1024x1024 .f32) :
    sout1_C_0 c i arg2 harg2 arg3 harg3 arg4 harg4 arg5 harg5 arg6 harg6 arg7 harg7 hc0 hc1 x0 x1 x2 xs0 xs1 = k1_pay4 x0 x1 xs0 := by
  unfold sout1_C_0
  rw [View.read_writes_eq_canon _ _ _ (scover1_C_0 c i arg2 harg2 arg3 harg3 arg4 harg4 arg5 harg5 arg6 harg6 arg7 harg7 hc0 hc1 x0 x1 x2 xs0 xs1)]
  unfold kernelRun1_C
  dsimp only
  try sl_unfold_words
  rw [View.canon_unit_zero (S := S1024x1) hzP]
  simp only [View.readAt_eq_ld, harg2.read_unread, harg3.read_unread, harg4.read_unread, harg6.read_unread, harg7.read_unread, View.ld_unit_zero (S := S1024x1024) hzP, View.ld_unit_zero (S := S1024x1) hzP]

/-- ki = 3, the accumulator: updated as at ki = 1, 2. -/
theorem accC (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i) (x0 x1 x2 : Vec F S1024x1024 .bf16) (xs0 : Vec F S1024x1 .f32) (xs1 : Vec F S1024x1024 .f32) :
    sout1_C_1 c i arg2 harg2 arg3 harg3 arg4 harg4 arg5 harg5 arg6 harg6 arg7 harg7 hc0 hc1 x0 x1 x2 xs0 xs1 = k1_pay5 x0 x1 x2 xs1 := by
  unfold sout1_C_1
  rw [View.read_writes_eq_canon _ _ _ (scover1_C_1 c i arg2 harg2 arg3 harg3 arg4 harg4 arg5 harg5 arg6 harg6 arg7 harg7 hc0 hc1 x0 x1 x2 xs0 xs1)]
  unfold kernelRun1_C
  dsimp only
  try sl_unfold_words
  rw [View.canon_unit_zero (S := S1024x1024) hzP]
  simp only [View.readAt_eq_ld, harg2.read_unread, harg3.read_unread, harg4.read_unread, harg6.read_unread, harg7.read_unread, View.ld_unit_zero (S := S1024x1024) hzP, View.ld_unit_zero (S := S1024x1) hzP]

/-- ki = 3, the output block: the updated accumulator over the updated row sums. -/
theorem outC (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole) (hc0 : ¬cond1_0 i) (hc1 : cond1_1 i) (x0 x1 x2 : Vec F S1024x1024 .bf16) (xs0 : Vec F S1024x1 .f32) (xs1 : Vec F S1024x1024 .f32) :
    out1_C_3 c i arg2 harg2 arg3 harg3 arg4 harg4 arg5 harg5 arg6 harg6 arg7 harg7 hc0 hc1 x0 x1 x2 xs0 xs1 = k1_pay6 (k1_pay5 x0 x1 x2 xs1) (k1_pay4 x0 x1 xs0) := by
  unfold out1_C_3
  rw [View.read_writes_eq_canon _ _ _ (cover1_C_3 c i arg2 harg2 arg3 harg3 arg4 harg4 arg5 harg5 arg6 harg6 arg7 harg7 hc0 hc1 x0 x1 x2 xs0 xs1)]
  unfold kernelRun1_C
  dsimp only
  try sl_unfold_words
  rw [View.canon_unit_zero (S := S1024x1024) hzP, View.readCov_unit_zero (S := S1024x1024) _ hzP, View.readCov_unit_zero (S := S1024x1) _ hzP]
  simp only [View.readAt_eq_ld, harg2.read_unread, harg3.read_unread, harg4.read_unread, harg6.read_unread, harg7.read_unread, View.ld_unit_zero (S := S1024x1024) hzP, View.ld_unit_zero (S := S1024x1) hzP]

/-! ## The same at a grid point -/

/-- After a point with ki = 0 the carried pair is the update of zero by the point's blocks. -/
theorem carried_first (c : Dev nD) (t : Fin cfg1.N) (h0 : t.val % 4 = 0) :
    (outsAt1 V c t.val t.isLt).2.1 = k1_pay4 (iblk1 V c 0 t) (iblk1 V c 1 t) k1_pay1
    ∧ (outsAt1 V c t.val t.isLt).2.2 = k1_pay5 (iblk1 V c 0 t) (iblk1 V c 1 t) (iblk1 V c 2 t) k1_pay2 := by
  have h1 : ¬t.val % 4 = 3 := by omega
  rw [outsAt1_A V c t h0 h1]
  dsimp only
  rw [sumA, accA]
  exact ⟨rfl, rfl⟩

/-- After a point with ki ≠ 0 it is the update of what the point before left. -/
theorem carried_next (c : Dev nD) (t : Fin cfg1.N) (h0 : ¬t.val % 4 = 0) :
    (outsAt1 V c t.val t.isLt).2.1 = k1_pay4 (iblk1 V c 0 t) (iblk1 V c 1 t) (outsAt1 V c (t.val - 1) (Nat.lt_of_le_of_lt (Nat.sub_le _ _) t.isLt)).2.1
    ∧ (outsAt1 V c t.val t.isLt).2.2 = k1_pay5 (iblk1 V c 0 t) (iblk1 V c 1 t) (iblk1 V c 2 t) (outsAt1 V c (t.val - 1) (Nat.lt_of_le_of_lt (Nat.sub_le _ _) t.isLt)).2.2 := by
  by_cases h1 : t.val % 4 = 3
  · rw [outsAt1_C V c t h0 h1]
    dsimp only
    rw [sumC, accC]
    exact ⟨rfl, rfl⟩
  · rw [outsAt1_B V c t h0 h1]
    dsimp only
    rw [sumB, accB]
    exact ⟨rfl, rfl⟩

/-- At a point with ki = 3 the output block is the accumulator the point leaves over the row sums it leaves. -/
theorem out_last (c : Dev nD) (t : Fin cfg1.N) (h3 : t.val % 4 = 3) :
    (outsAt1 V c t.val t.isLt).1 = k1_pay6 (outsAt1 V c t.val t.isLt).2.2 (outsAt1 V c t.val t.isLt).2.1 := by
  have h0 : ¬t.val % 4 = 0 := by omega
  rw [outsAt1_C V c t h0 h3]
  dsimp only
  rw [outC, accC, sumC]

end Cert.KernelIdeal.HandValue

end
-- ==== Proof.BlockSum.lean ====
/-
  A sum over the 4096 key rows, regrouped as four sums over the 1024 rows of each key block.
-/
import Mathlib.Algebra.BigOperators.Fin
import proofs.«133326_j50199577756108_2_alg».proof.Proof.Spec

noncomputable section

open scoped BigOperators

namespace Cert.Attn

/-- key row j of key block kb -/
def brow (kb : Fin 4) (j : Fin 1024) : Fin 4096 := ⟨kb.val * 1024 + j.val, by omega⟩

/-- Every key row is row j of block kb for exactly one pair (kb, j): the sum over all rows is the double sum. -/
theorem sum_rows_eq_sum_block_rows {M : Type*} [AddCommMonoid M] (f : Fin 4096 → M) :
    (∑ j : Fin 4096, f j) = ∑ kb : Fin 4, ∑ j : Fin 1024, f (brow kb j) := by
  calc (∑ j : Fin 4096, f j) = ∑ p : Fin 4 × Fin 1024, f (brow p.1 p.2) := by
        refine (Fintype.sum_equiv (finProdFinEquiv (m := 4) (n := 1024)) (fun p => f (brow p.1 p.2)) f (fun p => ?_)).symm
        exact congrArg f (Fin.ext (by simp only [brow, finProdFinEquiv, Equiv.coe_fn_mk]; omega))
    _ = ∑ kb : Fin 4, ∑ j : Fin 1024, f (brow kb j) := Fintype.sum_prod_type _

theorem sum_blocks {M : Type*} [AddCommMonoid M] (f : Fin 4096 → M) :
    (∑ j : Fin 4096, f j) = (∑ j : Fin 1024, f (brow 0 j)) + (∑ j : Fin 1024, f (brow 1 j)) + (∑ j : Fin 1024, f (brow 2 j)) + (∑ j : Fin 1024, f (brow 3 j)) := by
  rw [sum_rows_eq_sum_block_rows, Fin.sum_univ_four]

end Cert.Attn

end
-- ==== Proof.KI.PayAt1.lean ====
/-
  The attention body's stored values, read entry by entry on the extended reals.
  At a grid point the body holds a query block q, a key block k and a value block v (1024 rows each), the running
  row sums l and the running accumulator acc. With  w (r, j) = exp (tanh (∑ e, q (r, e) · k (j, e)) · 2⁻⁵):
  the row sums become  l (r) + ∑ j, w (r, j),  the accumulator  acc (r, d) + ∑ j, w (r, j) · v (j, d),
  both start from zero, and the last point stores  acc (r, d) / l (r).
-/
import proofs.«133326_j50199577756108_2_alg».proof.Proof.Gen.KernelIdeal.Skeleton
import proofs.«133326_j50199577756108_2_alg».proof.Proof.Spec
import proofs.«133326_j50199577756108_2_alg».proof.Proof.BlockSum
import proofs.«133326_j50199577756108_2_alg».proof.Proof.KI.ValueLemmasDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HandValue

open Cert.KernelIdeal Cert.KernelIdeal.Gen Idealize.ShloMosaic Idealize.ShloMosaic.ValueIdx

/-! ## A column kept as a unit axis -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum along a row -/

/-- The sum over the second axis of a 1024 × 1024 array, from the zero word, read at row `r`. -/
theorem rowSum_at (src : FVec Ideal S1024x1024 .f32) (hφ : FKind.Formats FTy.f32)
    (hacc : (0x00000000#32 : BitVec 32) = 0x00000000#32) (r : Fin 1024) :
    multiReduction .add [1] S1024 src 0x00000000#32 reduces_S1024x1024_S1024 hφ hacc (ix1 r) = ∑ j : Fin 1024, src (ix2 r j) := by
  refine (Ideal.multiReduction_add_single src 0x00000000#32 reduces_S1024x1024_S1024 hφ hacc (ix1 r)).trans ?_
  refine Finset.sum_congr rfl fun j _ => congrArg src (funext fun c => Fin.ext ?_)
  match c with
  | ⟨0, _⟩ => rfl
  | ⟨1, _⟩ => rfl

/-! ## The payloads -/

/-- The score scale is the word the body multiplies by. -/
theorem scale_eq : Scalar.ofBits (F := Ideal) .f32 0x3D000000#32 = Cert.Attn.scale := rfl

/-- The weights: w (r, j) = exp (tanh (q_r · k_j) · 2⁻⁵). -/
theorem pay3_at (q k : Vec Ideal S1024x1024 .bf16) (r j : Fin 1024) :
    k1_pay3 (F := Ideal) q k (ix2 r j) = Ideal.exp (Ideal.tanh (∑ e : Fin 1024, q (ix2 r e) * k (ix2 j e)) * Cert.Attn.scale) := by
  unfold k1_pay3
  rw [shapeCast_self, shapeCast_self]
  exact congrArg (fun s : EReal => Ideal.exp (Ideal.tanh s * Cert.Attn.scale)) (matmul_rows_rows q k r j)

/-- The running row sums start from zero … -/
theorem pay1_at (r : Fin 1024) (u : Fin 1) : k1_pay1 (F := Ideal) (ix2 r u) = 0 := by
  unfold k1_pay1
  rw [shapeCast_self]
  exact Ideal.ofBits_zero_f32

/-- … and so does the running accumulator. -/
theorem pay2_at (r d : Fin 1024) : k1_pay2 (F := Ideal) (ix2 r d) = 0 := by
  unfold k1_pay2
  rw [shapeCast_self]
  exact Ideal.ofBits_zero_f32

/-- The row sums after a point: what they were plus this key block's weights. -/
theorem pay4_at (q k : Vec Ideal S1024x1024 .bf16) (l : Vec Ideal S1024x1 .f32) (r : Fin 1024) (u : Fin 1) :
    k1_pay4 (F := Ideal) q k l (ix2 r u) = l (ix2 r u) + ∑ j : Fin 1024, k1_pay3 (F := Ideal) q k (ix2 r j) := by
  unfold k1_pay4
  rw [shapeCast_self]
  refine congrArg (fun s : EReal => l (ix2 r u) + s) ?_
  refine (shapeCast_a_a1_apply _ shapeCasts_S1024_S1024x1 r u).trans ?_
  exact rowSum_at (k1_pay3 (F := Ideal) q k) _ _ r

/-- The accumulator after a point: what it was plus this key block's weighted value rows. -/
theorem pay5_at (q k v : Vec Ideal S1024x1024 .bf16) (acc : Vec Ideal S1024x1024 .f32) (r d : Fin 1024) :
    k1_pay5 (F := Ideal) q k v acc (ix2 r d) = acc (ix2 r d) + ∑ j : Fin 1024, k1_pay3 (F := Ideal) q k (ix2 r j) * v (ix2 j d) := by
  unfold k1_pay5
  rw [shapeCast_self, shapeCast_self]
  refine congrArg (fun s : EReal => acc (ix2 r d) + s) ?_
  exact matmul_rows_cols (truncf .bf16 (k1_pay3 (F := Ideal) q k) bitsLt_bf16_f32) v r d

/-- The stored result: the accumulator over the row sum. -/
theorem pay6_at (acc : Vec Ideal S1024x1024 .f32) (l : Vec Ideal S1024x1 .f32) (r d : Fin 1024) :
    k1_pay6 (F := Ideal) acc l (ix2 r d) = Ideal.div (acc (ix2 r d)) (l (ix2 r (0 : Fin 1))) := by
  unfold k1_pay6
  exact congrArg (fun s : EReal => Ideal.div (acc (ix2 r d)) s) (broadcastTo_a1_ab_apply l broadcasts_S1024x1_S1024x1024 r d)

end Cert.KernelIdeal.HandValue

end
-- ==== Proof.KI.ValueLemmasBlocks.lean ====
/-
  Sums over key rows taken one key block at a time.
  The 4096 key rows are four blocks of 1024; the attention body meets them block by block, so its running sums
  after the block ki are sums over the blocks 0 … ki. Here: the sum of a function over the rows of one block,
  indexed by a natural number, and the sum over the first four blocks as the sum over all rows.
-/
import Mathlib.Algebra.BigOperators.Fin
import Mathlib.Algebra.BigOperators.Intervals
import proofs.«133326_j50199577756108_2_alg».proof.Proof.BlockSum

noncomputable section

open scoped BigOperators

namespace Cert.KernelIdeal.HandValue

open Cert.Attn

/-- The sum of `f` over the 1024 rows of key block `kb` (nothing past the fourth block). -/
def blockSum (f : Fin 4096 → EReal) (kb : ℕ) : EReal :=
  if h : kb < 4 then ∑ j : Fin 1024, f (brow ⟨kb, h⟩ j) else 0

theorem blockSum_of_lt (f : Fin 4096 → EReal) (kb : ℕ) (h : kb < 4) :
    blockSum f kb = ∑ j : Fin 1024, f (brow ⟨kb, h⟩ j) := dif_pos h

/-- The four block sums together are the sum over every row. -/
theorem sum_range_blockSum (f : Fin 4096 → EReal) : ∑ kb ∈ Finset.range 4, blockSum f kb = ∑ j : Fin 4096, f j := by
  rw [sum_rows_eq_sum_block_rows, ← Fin.sum_univ_eq_sum_range (fun kb => blockSum f kb) 4]
  exact Finset.sum_congr rfl fun kb _ => blockSum_of_lt f kb.val kb.isLt

/-- From zero, the first block. -/
theorem zero_add_blockSum (g : ℕ → EReal) : 0 + g 0 = ∑ kb ∈ Finset.range (0 + 1), g kb := by
  rw [zero_add, Finset.sum_range_one]

/-- One more block. -/
theorem add_blockSum (g : ℕ → EReal) (k : ℕ) : (∑ kb ∈ Finset.range (k + 1), g kb) + g (k + 1) = ∑ kb ∈ Finset.range (k + 1 + 1), g kb :=
  (Finset.sum_range_succ g (k + 1)).symm

end Cert.KernelIdeal.HandValue

end
-- ==== Proof.KI.ValueBlocks1.lean ====
/-
  Region 1: the three input blocks as pieces of the arrays. At grid point t = 4·qi + ki the query window holds row
  block qi of the query array (rows 1024·qi … 1024·qi + 1023), and the key and value windows hold row block ki of
  the key and value arrays.
-/
import proofs.«133326_j50199577756108_2_alg».proof.Proof.Gen.KernelIdeal.Launch
import proofs.«133326_j50199577756108_2_alg».proof.Proof.Gen.KernelIdeal.Skeleton
import proofs.«133326_j50199577756108_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws
import proofs.«133326_j50199577756108_2_alg».proof.Proof.KI.R1
import proofs.«133326_j50199577756108_2_alg».proof.Proof.BlockSum
set_option maxRecDepth 16384

noncomputable section

namespace Cert.KernelIdeal.HandValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The query window's block index at point t is (t / 4, 0). -/
theorem idx1_q : ∀ t : Fin cfg1.N, win1_0.index t (0 : Fin 2) = t.val / 4 ∧ win1_0.index t (1 : Fin 2) = 0 :=
  (by decide +kernel : ∀ t : Fin grid1.N, _)
/-- The key and value windows' block index at point t is (t % 4, 0). -/
theorem idx1_kv : ∀ t : Fin cfg1.N, win1_1.index t (0 : Fin 2) = t.val % 4 ∧ win1_1.index t (1 : Fin 2) = 0
    ∧ win1_2.index t (0 : Fin 2) = t.val % 4 ∧ win1_2.index t (1 : Fin 2) = 0 :=
  (by decide +kernel : ∀ t : Fin grid1.N, _)

/-- Row r of the query block at point t is row 1024·(t / 4) + r of the query array. -/
theorem iblk1_q_apply (c : Dev nD) (t : Fin cfg1.N) (qi : Fin 4) (hq : t.val / 4 = qi.val) (r e : Fin 1024) :
    (iblk1 V c 0 t : S1024x1024.Idx → Elt F _) (ix2 r e) = (V c main_v7_0 : S4096x1024.Idx → Elt F _) (ix2 (Cert.Attn.brow qi r) e) := by
  obtain ⟨h0, h1⟩ := idx1_q t
  unfold iblk1
  rw [View.read_apply]
  show V c main_v7_0 _ = V c main_v7_0 _
  refine congrArg (V c main_v7_0) (funext fun a => Fin.ext ?_)
  match a with
  | ⟨0, _⟩ => show win1_0.index t (0 : Fin 2) * 1024 + 1 * r.val = qi.val * 1024 + r.val; rw [h0, hq]; omega
  | ⟨1, _⟩ => show win1_0.index t (1 : Fin 2) * 1024 + 1 * e.val = e.val; rw [h1]; omega

/-- Row j of the key block at point t is row 1024·(t % 4) + j of the key array. -/
theorem iblk1_k_apply (c : Dev nD) (t : Fin cfg1.N) (ki : Fin 4) (hk : t.val % 4 = ki.val) (j e : Fin 1024) :
    (iblk1 V c 1 t : S1024x1024.Idx → Elt F _) (ix2 j e) = (V c main_v7_1 : S4096x1024.Idx → Elt F _) (ix2 (Cert.Attn.brow ki j) e) := by
  obtain ⟨h0, h1, -, -⟩ := idx1_kv t
  unfold iblk1
  rw [View.read_apply]
  show V c main_v7_1 _ = V c main_v7_1 _
  refine congrArg (V c main_v7_1) (funext fun a => Fin.ext ?_)
  match a with
  | ⟨0, _⟩ => show win1_1.index t (0 : Fin 2) * 1024 + 1 * j.val = ki.val * 1024 + j.val; rw [h0, hk]; omega
  | ⟨1, _⟩ => show win1_1.index t (1 : Fin 2) * 1024 + 1 * e.val = e.val; rw [h1]; omega

/-- Row j of the value block at point t is row 1024·(t % 4) + j of the value array. -/
theorem iblk1_v_apply (c : Dev nD) (t : Fin cfg1.N) (ki : Fin 4) (hk : t.val % 4 = ki.val) (j d : Fin 1024) :
    (iblk1 V c 2 t : S1024x1024.Idx → Elt F _) (ix2 j d) = (V c main_v7_2 : S4096x1024.Idx → Elt F _) (ix2 (Cert.Attn.brow ki j) d) := by
  obtain ⟨-, -, h0, h1⟩ := idx1_kv t
  unfold iblk1
  rw [View.read_apply]
  show V c main_v7_2 _ = V c main_v7_2 _
  refine congrArg (V c main_v7_2) (funext fun a => Fin.ext ?_)
  match a with
  | ⟨0, _⟩ => show win1_2.index t (0 : Fin 2) * 1024 + 1 * j.val = ki.val * 1024 + j.val; rw [h0, hk]; omega
  | ⟨1, _⟩ => show win1_2.index t (1 : Fin 2) * 1024 + 1 * d.val = d.val; rw [h1]; omega

end Cert.KernelIdeal.HandValue

end
-- ==== Proof.KI.ValueCover1.lean ====
/-
  Region 1 at the ideal values: from the output blocks to the output array.
  The output window's block index at grid point t = 4·qi + ki is (qi, 0), and the block is written back exactly at the
  points with ki = 3. So if at each of those four points the body leaves in the output's staging buffer rows
  1024·qi … 1024·qi + 1023 of a function G, the array the region leaves is G: the four write-backs tile the 4096 rows.
-/
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws
import proofs.«133326_j50199577756108_2_alg».proof.Proof.KI.R1
import proofs.«133326_j50199577756108_2_alg».proof.Proof.BlockSum
set_option maxRecDepth 16384

noncomputable section

namespace Cert.KernelIdeal.HandValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.ValueIdx

/-- The output's block index at point t is (t / 4, 0). -/
theorem idx1_out : ∀ t : Fin cfg1.N, win1_3.index t (0 : Fin 2) = t.val / 4 ∧ win1_3.index t (1 : Fin 2) = 0 :=
  (by decide +kernel : ∀ t : Fin grid1.N, _)

/-- A point that writes the output back, t = 4·qi + 3, writes back row block qi of G, when the body left it there. -/
theorem flushed1_3 (V : (c : Dev nD) → (b : Ref sig .tc) → Buf (Elt Ideal) ((c : Thread nD τ).loc b)) (c : Dev nD)
    (G : Cert.Attn.SX.Idx → EReal)
    (hout : ∀ (t : Fin cfg1.N) (qi : Fin 4), t.val = 4 * qi.val + 3 → ∀ (r d : Fin 1024),
      (outsAt1 V c t.val t.isLt).1 (ix2 r d) = G (ix2 (Cert.Attn.brow qi r) d))
    (t : Fin cfg1.N) (hf : (cfg1.win 3).flush t = true) :
    (dat1 (F := Ideal) V c).flushed 3 t = ((cfg1.win 3).blk t).view.read (Elt Ideal) G := by
  have hN : cfg1.N = 16 := N_1
  have ht : t.val < 16 := hN ▸ t.isLt
  have h3 : t.val % 4 = 3 := (flush1_3 t).mp hf
  have ho := idx1_out t
  show (cfg1.win 3).cut (grid1.coords t) ((dat1 V c).after 3 t) = _
  rw [after1_3]
  funext y
  obtain ⟨r, d, rfl⟩ : ∃ (r d : Fin 1024), y = ix2 r d := ⟨y 0, y 1, eq_ix2 y⟩
  have hi : ((cfg1.win 3).blk t).view.emb (ix2 r d) = (ix2 (Cert.Attn.brow ⟨t.val / 4, by omega⟩ r) d : S4096x1024.Idx) :=
    funext fun a => Fin.ext (by
      match a with
      | ⟨0, _⟩ => show win1_3.index t (0 : Fin 2) * 1024 + 1 * r.val = t.val / 4 * 1024 + r.val; rw [ho.1]; omega
      | ⟨1, _⟩ => show win1_3.index t (1 : Fin 2) * 1024 + 1 * d.val = d.val; rw [ho.2]; omega)
  show (outsAt1 V c t.val t.isLt).1 (ix2 r d) = G (((cfg1.win 3).blk t).view.emb (ix2 r d))
  rw [hi]
  exact hout t ⟨t.val / 4, by omega⟩ (by dsimp only; omega) r d

/-- An index is in point t's block of the output iff its row is in block t / 4. -/
theorem mem_blk1_3 (t : Fin cfg1.N) (i : S4096x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v8).slice (win1_3.rect t)).set ↔ _
  rw [View.set_slice_whole, Rect.mem_set_unit]
  exact Iff.rfl

/-- Every row r lies in the block of the point 4·(r / 1024) + 3, which writes back. -/
theorem cover1_3 (i : S4096x1024.Idx) : ∃ t : Fin cfg1.N, (cfg1.win 3).flush t = true ∧ i ∈ ((cfg1.win 3).blk t).view.set := by
  have hN : cfg1.N = 16 := N_1
  have hi0 : (i 0).val < 4096 := (i 0).isLt
  have hi1 : (i 1).val < 1024 := (i 1).isLt
  refine ⟨⟨4 * ((i 0).val / 1024) + 3, by rw [hN]; omega⟩, (flush1_3 _).mpr (by dsimp only; omega), ?_⟩
  rw [mem_blk1_3]
  have ho := idx1_out ⟨4 * ((i 0).val / 1024) + 3, by rw [hN]; omega⟩
  intro a
  match a with
  | ⟨0, _⟩ =>
    show win1_3.index _ (0 : Fin 2) * 1024 ≤ (i 0).val ∧ (i 0).val < win1_3.index _ (0 : Fin 2) * 1024 + 1024
    rw [ho.1]; dsimp only; omega
  | ⟨1, _⟩ =>
    show win1_3.index _ (1 : Fin 2) * 1024 ≤ (i 1).val ∧ (i 1).val < win1_3.index _ (1 : Fin 2) * 1024 + 1024
    rw [ho.2]; omega

/-- The array the region leaves is G, once each last point of a query block leaves that block of G. -/
theorem arr1_3_of_blocks (V : (c : Dev nD) → (b : Ref sig .tc) → Buf (Elt Ideal) ((c : Thread nD τ).loc b)) (c : Dev nD) (G : Cert.Attn.SX.Idx → EReal)
    (hout : ∀ (t : Fin cfg1.N) (qi : Fin 4), t.val = 4 * qi.val + 3 → ∀ (r d : Fin 1024),
      (outsAt1 V c t.val t.isLt).1 (ix2 r d) = G (ix2 (Cert.Attn.brow qi r) d)) :
    (dat1 (F := Ideal) V c).arrAt 3 cfg1.N = G :=
  (dat1 (F := Ideal) V c).arrAt_eq_of_cover 3 G (fun t hf => flushed1_3 V c G hout t hf) cover1_3

end Cert.KernelIdeal.HandValue

end
-- ==== Proof.KI.Value1.lean ====
/-
  Region 1 at the ideal values: the array the attention kernel leaves is the weighted mean of the value rows.
  The grid point 4·qi + ki holds query block qi and key and value block ki. For query row (qi, r) the body adds to
  the running row sum the weights of the 1024 key rows of block ki, and to the running accumulator those weights
  times the value rows; both start from zero at ki = 0. After ki = 3 they are the sums over the four key blocks,
  that is over all 4096 key rows — regrouping a sum uses only that addition is associative and commutative —
  and the stored entry is their quotient.
-/
import proofs.«133326_j50199577756108_2_alg».proof.Proof.Gen.KernelIdeal.Launch
import proofs.«133326_j50199577756108_2_alg».proof.Proof.Gen.KernelIdeal.Skeleton
import proofs.«133326_j50199577756108_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws
import proofs.«133326_j50199577756108_2_alg».proof.Proof.Spec
import proofs.«133326_j50199577756108_2_alg».proof.Proof.KI.R1
import proofs.«133326_j50199577756108_2_alg».proof.Proof.KI.ValuePieces1
import proofs.«133326_j50199577756108_2_alg».proof.Proof.KI.PayAt1
import proofs.«133326_j50199577756108_2_alg».proof.Proof.KI.ValueLemmasBlocks
import proofs.«133326_j50199577756108_2_alg».proof.Proof.BlockSum
import proofs.«133326_j50199577756108_2_alg».proof.Proof.KI.ValueBlocks1
import proofs.«133326_j50199577756108_2_alg».proof.Proof.KI.ValueCover1
set_option maxRecDepth 16384

noncomputable section

namespace Cert.KernelIdeal.HandValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- An array of 4096 rows of 1024 entries as a function of the row and the column. -/
abbrev rows (A : Cert.Attn.SX.Idx → EReal) : Fin 4096 → Fin 1024 → EReal := fun r e => A (ix2 r e)

/-! ## The body's arithmetic at a point, in the arrays' rows -/

/-- The weight the body computes at a point for row r of its query block and row j of its key block is the weight of
    query row (qi, r) and key row (ki, j). -/
theorem wgt_at (c : Dev nD) (Q K : Cert.Attn.SX.Idx → EReal) (hQ : V c main_v7_0 = Q) (hK : V c main_v7_1 = K)
    (t : Fin cfg1.N) (qi ki : Fin 4) (hq : t.val / 4 = qi.val) (hk : t.val % 4 = ki.val) (r j : Fin 1024) :
    k1_pay3 (F := Ideal) (iblk1 V c 0 t) (iblk1 V c 1 t) (ix2 r j)
      = Cert.Attn.wgt (rows Q) (rows K) (Cert.Attn.brow qi r) (Cert.Attn.brow ki j) := by
  refine (pay3_at (iblk1 V c 0 t) (iblk1 V c 1 t) r j).trans ?_
  unfold Cert.Attn.wgt
  refine congrArg (fun s : EReal => Ideal.exp (Ideal.tanh s * Cert.Attn.scale)) (Finset.sum_congr rfl fun e _ => ?_)
  exact congrArg₂ (· * ·) ((iblk1_q_apply V c t qi hq r e).trans (congrFun hQ _)) ((iblk1_k_apply V c t ki hk j e).trans (congrFun hK _))

/-- The row sums after the point: what they were plus the weights of key block ki. -/
theorem sum_step (c : Dev nD) (Q K : Cert.Attn.SX.Idx → EReal) (hQ : V c main_v7_0 = Q) (hK : V c main_v7_1 = K)
    (t : Fin cfg1.N) (qi ki : Fin 4) (hq : t.val / 4 = qi.val) (hk : t.val % 4 = ki.val)
    (l : Vec Ideal S1024x1 .f32) (r : Fin 1024) (u : Fin 1) :
    k1_pay4 (F := Ideal) (iblk1 V c 0 t) (iblk1 V c 1 t) l (ix2 r u)
      = l (ix2 r u) + blockSum (fun j => Cert.Attn.wgt (rows Q) (rows K) (Cert.Attn.brow qi r) j) ki.val := by
  refine (pay4_at (iblk1 V c 0 t) (iblk1 V c 1 t) l r u).trans ?_
  rw [blockSum_of_lt _ ki.val ki.isLt]
  exact congrArg (fun s : EReal => l (ix2 r u) + s) (Finset.sum_congr rfl fun j _ => wgt_at V c Q K hQ hK t qi ki hq hk r j)

/-- The accumulator after the point: what it was plus the weighted value rows of key block ki. -/
theorem acc_step (c : Dev nD) (Q K Vv : Cert.Attn.SX.Idx → EReal) (hQ : V c main_v7_0 = Q) (hK : V c main_v7_1 = K) (hV : V c main_v7_2 = Vv)
    (t : Fin cfg1.N) (qi ki : Fin 4) (hq : t.val / 4 = qi.val) (hk : t.val % 4 = ki.val)
    (acc : Vec Ideal S1024x1024 .f32) (r d : Fin 1024) :
    k1_pay5 (F := Ideal) (iblk1 V c 0 t) (iblk1 V c 1 t) (iblk1 V c 2 t) acc (ix2 r d)
      = acc (ix2 r d) + blockSum (fun j => Cert.Attn.wgt (rows Q) (rows K) (Cert.Attn.brow qi r) j * rows Vv j d) ki.val := by
  refine (pay5_at (iblk1 V c 0 t) (iblk1 V c 1 t) (iblk1 V c 2 t) acc r d).trans ?_
  rw [blockSum_of_lt _ ki.val ki.isLt]
  refine congrArg (fun s : EReal => acc (ix2 r d) + s) (Finset.sum_congr rfl fun j _ => ?_)
  exact congrArg₂ (· * ·) (wgt_at V c Q K hQ hK t qi ki hq hk r j) ((iblk1_v_apply V c t ki hk j d).trans (congrFun hV _))

/-! ## The carried pair after each point -/

/-- After the point n = 4·qi + ki the running row sums and the running accumulator of query row (qi, r) are the sums
    over the key blocks 0 … ki of the weights and of the weighted value rows. -/
theorem carried_inv (c : Dev nD) (Q K Vv : Cert.Attn.SX.Idx → EReal) (hQ : V c main_v7_0 = Q) (hK : V c main_v7_1 = K) (hV : V c main_v7_2 = Vv) :
    ∀ (n : ℕ) (h : n < cfg1.N) (qi : Fin 4) (hq : n / 4 = qi.val) (r : Fin 1024),
      (∀ u : Fin 1, (outsAt1 V c n h).2.1 (ix2 r u)
          = ∑ kb ∈ Finset.range (n % 4 + 1), blockSum (fun j => Cert.Attn.wgt (rows Q) (rows K) (Cert.Attn.brow qi r) j) kb)
      ∧ (∀ d : Fin 1024, (outsAt1 V c n h).2.2 (ix2 r d)
          = ∑ kb ∈ Finset.range (n % 4 + 1), blockSum (fun j => Cert.Attn.wgt (rows Q) (rows K) (Cert.Attn.brow qi r) j * rows Vv j d) kb)
  | n, h, qi, hq, r => by
    have hk : (⟨n, h⟩ : Fin cfg1.N).val % 4 = (⟨n % 4, Nat.mod_lt _ (by decide)⟩ : Fin 4).val := rfl
    by_cases h0 : n % 4 = 0
    · obtain ⟨e1, e2⟩ := carried_first V c ⟨n, h⟩ h0
      refine ⟨fun u => ?_, fun d => ?_⟩
      · refine (congrFun e1 (ix2 r u)).trans ?_
        refine (sum_step V c Q K hQ hK ⟨n, h⟩ qi ⟨n % 4, Nat.mod_lt _ (by decide)⟩ hq hk (k1_pay1 (F := Ideal)) r u).trans ?_
        rw [pay1_at]
        show 0 + blockSum _ (n % 4) = _
        rw [h0]
        exact zero_add_blockSum _
      · refine (congrFun e2 (ix2 r d)).trans ?_
        refine (acc_step V c Q K Vv hQ hK hV ⟨n, h⟩ qi ⟨n % 4, Nat.mod_lt _ (by decide)⟩ hq hk (k1_pay2 (F := Ideal)) r d).trans ?_
        rw [pay2_at]
        show 0 + blockSum _ (n % 4) = _
        rw [h0]
        exact zero_add_blockSum _
    · obtain ⟨m, rfl⟩ : ∃ m, n = m + 1 := ⟨n - 1, by omega⟩
      have ih := carried_inv c Q K Vv hQ hK hV m (by omega) qi (by omega) r
      obtain ⟨e1, e2⟩ := carried_next V c ⟨m + 1, h⟩ h0
      have hm : (m + 1) % 4 = m % 4 + 1 := by omega
      refine ⟨fun u => ?_, fun d => ?_⟩
      · refine (congrFun e1 (ix2 r u)).trans ?_
        refine (sum_step V c Q K hQ hK ⟨m + 1, h⟩ qi ⟨(m + 1) % 4, Nat.mod_lt _ (by decide)⟩ hq hk _ r u).trans ?_
        show (outsAt1 V c m _).2.1 (ix2 r u) + blockSum _ ((m + 1) % 4) = _
        rw [ih.1 u, hm]
        exact add_blockSum _ _
      · refine (congrFun e2 (ix2 r d)).trans ?_
        refine (acc_step V c Q K Vv hQ hK hV ⟨m + 1, h⟩ qi ⟨(m + 1) % 4, Nat.mod_lt _ (by decide)⟩ hq hk _ r d).trans ?_
        show (outsAt1 V c m _).2.2 (ix2 r d) + blockSum _ ((m + 1) % 4) = _
        rw [ih.2 d, hm]
        exact add_blockSum _ _
  termination_by n => n

/-! ## The output blocks and the array -/

/-- At the last key block the stored entry is the attention output of query row (qi, r). -/
theorem out_entry (c : Dev nD) (Q K Vv : Cert.Attn.SX.Idx → EReal) (hQ : V c main_v7_0 = Q) (hK : V c main_v7_1 = K) (hV : V c main_v7_2 = Vv)
    (t : Fin cfg1.N) (qi : Fin 4) (ht : t.val = 4 * qi.val + 3) (r d : Fin 1024) :
    (outsAt1 V c t.val t.isLt).1 (ix2 r d) = Cert.Attn.attn (rows Q) (rows K) (rows Vv) (Cert.Attn.brow qi r) d := by
  have h3 : t.val % 4 = 3 := by omega
  obtain ⟨il, ia⟩ := carried_inv V c Q K Vv hQ hK hV t.val t.isLt qi (by omega) r
  rw [out_last V c t h3]
  refine (pay6_at _ _ r d).trans ?_
  rw [ia d, il 0, h3]
  show Ideal.div (∑ kb ∈ Finset.range 4, _) (∑ kb ∈ Finset.range 4, _) = _
  rw [sum_range_blockSum, sum_range_blockSum]
  rfl

/-- The array the attention kernel leaves: the weighted mean of the value rows, row by row. -/
theorem arr1_3 (c : Dev nD) (Q K Vv : Cert.Attn.SX.Idx → EReal) (hQ : V c main_v7_0 = Q) (hK : V c main_v7_1 = K) (hV : V c main_v7_2 = Vv) :
    (dat1 (F := Ideal) V c).arrAt 3 cfg1.N
      = fun i => Cert.Attn.attn (fun r e => Q (ix2 r e)) (fun r e => K (ix2 r e)) (fun r e => Vv (ix2 r e)) (i 0) (i 1) :=
  arr1_3_of_blocks V c _ fun t qi ht r d => out_entry V c Q K Vv hQ hK hV t qi ht r d

end Cert.KernelIdeal.HandValue

end
-- ==== Proof.KI.KernelValue.lean ====
/-
  The kernel program's result as one function of its arguments, at the ideal instance.
  The host conversions to the narrow float format are the identity on extended reals and the bias reshapes only
  re-index, so the projection pipeline finds the arguments themselves; its three output arrays are the projections
  Q, K, V of the specification; the attention pipeline finds those, and its output array is the specification's
  weighted mean of V's rows.
-/
import proofs.«133326_j50199577756108_2_alg».proof.Proof.KI.Run
import proofs.«133326_j50199577756108_2_alg».proof.Proof.KI.Value0
import proofs.«133326_j50199577756108_2_alg».proof.Proof.KI.Value1
import Idealize.ShloMosaic.Lib.ValueIdx
import Idealize.ShloMosaic.Lib.ValueLayout
import Idealize.ShloMosaic.Lib.Pipeline.Value
import Idealize.ShloMosaic.Lib.StableHlo.Run
import proofs.«133326_j50199577756108_2_alg».proof.Proof.Spec

set_option maxRecDepth 16384

noncomputable section

namespace Cert.KernelIdeal.HandValue
open Cert.KernelIdeal.Hand Idealize.ShloMosaic.ValueIdx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The host conversions at the ideal instance: a change of format is the identity, a reshape re-indexes -/

theorem V1_v0 (c : Dev nD) : (V1 (F := Ideal) m ρ c main_v0 : S4096x1024.Idx → EReal) = m ((c : Thread nD τ).loc main_arg0) := by
  dsimp only [V1, W1, W0, hostOps0]; after_results; rfl
theorem V1_v1 (c : Dev nD) : (V1 (F := Ideal) m ρ c main_v1 : S1024x1024.Idx → EReal) = m ((c : Thread nD τ).loc main_arg1) := by
  dsimp only [V1, W1, W0, hostOps0]; after_results; rfl
theorem V1_v2 (c : Dev nD) : (V1 (F := Ideal) m ρ c main_v2 : S1024x1024.Idx → EReal) = m ((c : Thread nD τ).loc main_arg3) := by
  dsimp only [V1, W1, W0, hostOps0]; after_results; rfl
theorem V1_v3 (c : Dev nD) : (V1 (F := Ideal) m ρ c main_v3 : S1024x1024.Idx → EReal) = m ((c : Thread nD τ).loc main_arg5) := by
  dsimp only [V1, W1, W0, hostOps0]; after_results; rfl
theorem V1_v4 (c : Dev nD) : (V1 (F := Ideal) m ρ c main_v4 : S1x1024.Idx → EReal) = fun j => m ((c : Thread nD τ).loc main_arg2) (ix1 (j 1)) := by
  dsimp only [V1, W1, W0, hostOps0]; after_results
  funext j
  obtain ⟨u, i, rfl⟩ : ∃ (u : Fin 1) (i : Fin 1024), j = ix2 u i := ⟨j 0, j 1, eq_ix2 j⟩
  exact shapeCast_a_1a_apply _ _ u i
theorem V1_v5 (c : Dev nD) : (V1 (F := Ideal) m ρ c main_v5 : S1x1024.Idx → EReal) = fun j => m ((c : Thread nD τ).loc main_arg4) (ix1 (j 1)) := by
  dsimp only [V1, W1, W0, hostOps0]; after_results
  funext j
  obtain ⟨u, i, rfl⟩ : ∃ (u : Fin 1) (i : Fin 1024), j = ix2 u i := ⟨j 0, j 1, eq_ix2 j⟩
  exact shapeCast_a_1a_apply _ _ u i
theorem V1_v6 (c : Dev nD) : (V1 (F := Ideal) m ρ c main_v6 : S1x1024.Idx → EReal) = fun j => m ((c : Thread nD τ).loc main_arg6) (ix1 (j 1)) := by
  dsimp only [V1, W1, W0, hostOps0]; after_results
  funext j
  obtain ⟨u, i, rfl⟩ : ∃ (u : Fin 1) (i : Fin 1024), j = ix2 u i := ⟨j 0, j 1, eq_ix2 j⟩
  exact shapeCast_a_1a_apply _ _ u i

/-! ## The three projections after region 0 -/

theorem V2_q (c : Dev nD) : (V2 (F := Ideal) m ρ c main_v7_0 : S4096x1024.Idx → EReal)
    = fun i => Cert.Attn.proj (m ((c : Thread nD τ).loc main_arg0)) (m ((c : Thread nD τ).loc main_arg1)) (m ((c : Thread nD τ).loc main_arg2)) (i 0) (i 1) := by
  refine (W2_arr m ρ c 7).trans ((arr0_7 (V1 m ρ) c _ _ _ (V1_v0 m ρ c) (V1_v1 m ρ c) (V1_v4 m ρ c)).trans ?_)
  exact congrArg (fun b : Cert.Attn.SB.Idx → EReal => fun i : Cert.Attn.SX.Idx => Cert.Attn.proj _ _ b (i 0) (i 1))
    (funext fun j => congrArg _ (eq_ix1 j).symm)
theorem V2_k (c : Dev nD) : (V2 (F := Ideal) m ρ c main_v7_1 : S4096x1024.Idx → EReal)
    = fun i => Cert.Attn.proj (m ((c : Thread nD τ).loc main_arg0)) (m ((c : Thread nD τ).loc main_arg3)) (m ((c : Thread nD τ).loc main_arg4)) (i 0) (i 1) := by
  refine (W2_arr m ρ c 8).trans ((arr0_8 (V1 m ρ) c _ _ _ (V1_v0 m ρ c) (V1_v2 m ρ c) (V1_v5 m ρ c)).trans ?_)
  exact congrArg (fun b : Cert.Attn.SB.Idx → EReal => fun i : Cert.Attn.SX.Idx => Cert.Attn.proj _ _ b (i 0) (i 1))
    (funext fun j => congrArg _ (eq_ix1 j).symm)
theorem V2_v (c : Dev nD) : (V2 (F := Ideal) m ρ c main_v7_2 : S4096x1024.Idx → EReal)
    = fun i => Cert.Attn.proj (m ((c : Thread nD τ).loc main_arg0)) (m ((c : Thread nD τ).loc main_arg5)) (m ((c : Thread nD τ).loc main_arg6)) (i 0) (i 1) := by
  refine (W2_arr m ρ c 9).trans ((arr0_9 (V1 m ρ) c _ _ _ (V1_v0 m ρ c) (V1_v3 m ρ c) (V1_v6 m ρ c)).trans ?_)
  exact congrArg (fun b : Cert.Attn.SB.Idx → EReal => fun i : Cert.Attn.SX.Idx => Cert.Attn.proj _ _ b (i 0) (i 1))
    (funext fun j => congrArg _ (eq_ix1 j).symm)

/-! ## The result -/

/-- The result array after the run is the specification's function of the argument arrays. -/
theorem kernel_result (c : Dev nD) : (W3 (F := Ideal) m ρ c (Proc.devRef .tc main_v8) : S4096x1024.Idx → EReal)
    = Cert.Attn.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (result_eq m ρ c).trans ?_
  rw [arr1_3 (V2 m ρ) c _ _ _ (V2_q m ρ c) (V2_k m ρ c) (V2_v m ρ c)]
  rfl

end Cert.KernelIdeal.HandValue

end
-- ==== Proof.RefAlgebra.lean ====
/-
  The algebra that joins a softmax-weighted sum to a ratio of two sums, on the extended reals.

  For real scores s_j and a real shift m, exp (s_j - m) = exp (s_j) / exp m, so the common factor 1 / exp m
  cancels between the normalised weights exp (s_j - m) / ∑ exp (s_j' - m) and the unshifted ones:
      ∑ j, (exp (s_j - m) / ∑ j', exp (s_j' - m)) · v_j = (∑ j, exp (s_j) · v_j) / (∑ j, exp (s_j)).
  The denominators are sums of positive reals over a nonempty index set, hence nonzero, and every term is a real
  number, so the identity is proved in ℝ and carried to the extended reals through the coercion.
  Also here: √1024 = 32 and 1 / 32 = 2⁻⁵ as binary32 words, and that sums of products of reals are real.
-/
import proofs.«133326_j50199577756108_2_alg».proof.Proof.Spec
import Idealize.ShloMosaic.PureOps.Ideal.Laws

noncomputable section

open scoped BigOperators

namespace Cert.RefValue

open Idealize.ShloMosaic Idealize.ShloMosaic.ValueIdx

/-- every entry of an array is a real number -/
def AllReal {S : Shape} (a : S.Idx → EReal) : Prop := ∀ i, ∃ r : ℝ, a i = (r : EReal)

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers, read in the extended reals, is a real number. -/
theorem sum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- The shift cancels, in ℝ. -/
theorem softmax_shift_real {ι : Type} [Fintype ι] [Nonempty ι] (s v : ι → ℝ) (m : ℝ) :
    ∑ j, Real.exp (s j - m) * (1 / ∑ j', Real.exp (s j' - m)) * v j
      = (∑ j, Real.exp (s j) * v j) * (1 / ∑ j, Real.exp (s j)) := by
  have hZ : (∑ j, Real.exp (s j)) ≠ 0 :=
    (Finset.sum_pos (fun j _ => Real.exp_pos (s j)) Finset.univ_nonempty).ne'
  have hc : Real.exp m ≠ 0 := (Real.exp_pos m).ne'
  have hZ' : ∑ j', Real.exp (s j' - m) = (∑ j, Real.exp (s j)) / Real.exp m := by
    rw [Finset.sum_div]; exact Finset.sum_congr rfl fun j _ => Real.exp_sub _ _
  rw [hZ', Finset.sum_mul]
  refine Finset.sum_congr rfl fun j _ => ?_
  rw [Real.exp_sub]
  field_simp

/-- The shift cancels, on the extended reals, when the scores, the values and the shift are real numbers. -/
theorem softmax_shift {ι : Type} [Fintype ι] [Nonempty ι] (s v : ι → EReal) (m : EReal)
    (hs : ∀ j, ∃ r : ℝ, s j = (r : EReal)) (hv : ∀ j, ∃ r : ℝ, v j = (r : EReal)) (hm : ∃ r : ℝ, m = (r : EReal)) :
    ∑ j, Ideal.div (Ideal.exp (s j - m)) (∑ j', Ideal.exp (s j' - m)) * v j
      = Ideal.div (∑ j, Ideal.exp (s j) * v j) (∑ j, Ideal.exp (s j)) := by
  choose sr hsr using hs
  choose vr hvr using hv
  obtain ⟨mr, rfl⟩ := hm
  obtain rfl : s = fun j => (sr j : EReal) := funext hsr
  obtain rfl : v = fun j => (vr j : EReal) := funext hvr
  have hZ : (∑ j, Real.exp (sr j)) ≠ 0 :=
    (Finset.sum_pos (fun j _ => Real.exp_pos (sr j)) Finset.univ_nonempty).ne'
  have hZ' : (∑ j, Real.exp (sr j - mr)) ≠ 0 :=
    (Finset.sum_pos (fun j _ => Real.exp_pos (sr j - mr)) Finset.univ_nonempty).ne'
  simp only [← EReal.coe_sub, Ideal.exp_coe, ← coe_sum, Ideal.div_coe hZ, Ideal.div_coe hZ', ← EReal.coe_mul]
  exact congrArg _ (softmax_shift_real sr vr mr)

/-- The score scale, the word 0x3D000000, is the real number 1 / 32. -/
theorem scale_coe : Cert.Attn.scale = (((1 : ℝ) / 32 : ℝ) : EReal) := by
  unfold Cert.Attn.scale
  simp [Ideal.ofBits, Ideal.ieee, -EReal.coe_mul]; norm_num

/-- The word 0x44800000 is 1024, its square root is 32, and one over that is the word 0x3D000000 = 2⁻⁵. -/
theorem scale_eq :
    Ideal.div (Ideal.ofBits .f32 0x3F800000#32) (Ideal.sqrt (Ideal.ofBits .f32 0x44800000#32)) = Cert.Attn.scale := by
  have h1 : Ideal.ofBits .f32 0x3F800000#32 = ((1 : ℝ) : EReal) := by
    simp [Ideal.ofBits, Ideal.ieee, -EReal.coe_mul]; norm_num
  have h2 : Ideal.ofBits .f32 0x44800000#32 = ((1024 : ℝ) : EReal) := by
    simp [Ideal.ofBits, Ideal.ieee, -EReal.coe_mul]; norm_num
  have h4 : Real.sqrt 1024 = 32 := by
    rw [show (1024 : ℝ) = 32 ^ 2 by norm_num, Real.sqrt_sq (by norm_num)]
  rw [h1, h2, scale_coe, Ideal.sqrt_coe, if_neg (by norm_num), h4, Ideal.div_coe (by norm_num), ← EReal.coe_mul, one_mul]

/-- The word 0xFF800000 is −∞, the bottom of the extended reals. -/
theorem ofBits_neg_inf : Ideal.ofBits .f32 0xFF800000#32 = ⊥ := by
  simp [Ideal.ofBits, Ideal.ieee]

/-- The maximum, from −∞, of finitely many real numbers over a nonempty index set is a real number: it is attained. -/
theorem fold_max_real {ι : Type} (s : Finset ι) (hs : s.Nonempty) (f : ι → EReal)
    (hf : ∀ i, ∃ q : ℝ, f i = (q : EReal)) : ∃ m : ℝ, s.fold max ⊥ f = (m : EReal) := by
  obtain ⟨i, _, hi⟩ := Finset.exists_mem_eq_sup s hs f
  obtain ⟨q, hq⟩ := hf i
  exact ⟨q, (show s.fold max ⊥ f = s.sup f from rfl).trans (hi.trans hq)⟩

/-- A projection of real arrays is real: a finite sum of products of reals plus a real. -/
theorem proj_real {x : Cert.Attn.SX.Idx → EReal} {W : Cert.Attn.SW.Idx → EReal} {b : Cert.Attn.SB.Idx → EReal}
    (hx : AllReal x) (hW : AllReal W) (hb : AllReal b) (r : Fin 4096) (d : Fin 1024) :
    ∃ q : ℝ, Cert.Attn.proj x W b r d = (q : EReal) := by
  unfold Cert.Attn.proj
  obtain ⟨s, hs⟩ := sum_real Finset.univ (fun e : Fin 1024 => x (ix2 r e) * W (ix2 e d)) (fun e => by
    obtain ⟨a, ha⟩ := hx (ix2 r e)
    obtain ⟨c, hc⟩ := hW (ix2 e d)
    exact ⟨a * c, by rw [ha, hc, EReal.coe_mul]⟩)
  obtain ⟨c, hc⟩ := hb (ix1 d)
  exact ⟨s + c, by rw [hs, hc, EReal.coe_add]⟩

/-- The scaled score of real queries and keys is real: tanh of a real, times 2⁻⁵. -/
theorem score_real {Q K : Fin 4096 → Fin 1024 → EReal} (hQ : ∀ r e, ∃ q : ℝ, Q r e = (q : EReal))
    (hK : ∀ r e, ∃ q : ℝ, K r e = (q : EReal)) (r j : Fin 4096) :
    ∃ q : ℝ, Ideal.tanh (∑ e : Fin 1024, Q r e * K j e) * Cert.Attn.scale = (q : EReal) := by
  obtain ⟨s, hs⟩ := sum_real Finset.univ (fun e : Fin 1024 => Q r e * K j e) (fun e => by
    obtain ⟨a, ha⟩ := hQ r e
    obtain ⟨c, hc⟩ := hK j e
    exact ⟨a * c, by rw [ha, hc, EReal.coe_mul]⟩)
  exact ⟨Real.tanh s * (1 / 32), by rw [hs, scale_coe, Ideal.tanh_coe, EReal.coe_mul]⟩

end Cert.RefValue

end
-- ==== Proof.RefValue.lean ====
/-
  The reference's result, read index by index, is the attention function of the specification, when every entry of every
  argument is a real number.

  Reading the reference from its result backwards: the output at (r, d) is ∑ j, p (r, j) · V j d with
  p (r, j) = e (r, j) / ∑ j', e (r, j'), e (r, j) = exp (s (r, j) − m r), s (r, j) = tanh (∑ e, Q r e · K j e) · (1 / √1024),
  m r = max (−∞, max over j from −∞ of s (r, j)), and Q, K, V the three projections x · W + b. The scale 1 / √1024 is the
  word for 2⁻⁵. With real arguments every s (r, j) is real, so the row maximum m r, being attained, is real too; its value
  is never needed, because a real shift cancels between the numerator and the denominator of the softmax.
-/
import proofs.«133326_j50199577756108_2_alg».proof.Proof.Gen.ReferenceIdeal.Read
import proofs.«133326_j50199577756108_2_alg».proof.Proof.Spec
import proofs.«133326_j50199577756108_2_alg».proof.Proof.RefAlgebra

noncomputable section

open scoped BigOperators

namespace Cert.RefValue

open Idealize.ShloMosaic Idealize.ShloMosaic.ValueIdx Cert.ReferenceIdeal Cert.ReferenceIdeal.Gen Cert.ReferenceIdeal.Read
open Cert.Attn (proj scale G)

/-- The three kinds of argument array: the activations, a weight matrix, a bias. -/
abbrev TX : Type := (⟨S4096x1024, .f32⟩ : BufTy).Contents (Elt Ideal)
abbrev TW : Type := (⟨S1024x1024, .f32⟩ : BufTy).Contents (Elt Ideal)
abbrev TB : Type := (⟨S1024, .f32⟩ : BufTy).Contents (Elt Ideal)

/-! ## The three projections -/

/-- The query projection at row `r`, column `e`. -/
theorem v3_ix (x : TX) (W : TW) (b : TB) (r : Fin 4096) (e : Fin 1024) :
    val_main_v3 (F := Ideal) x W b (ix2 r e) = proj x W b r e := by
  have el : ∀ k : Fin 1024, lidx_main_v0 (ix2 r e) k = ix2 r k := fun k =>
    funext fun a => by match a with | ⟨0, _⟩ => rfl | ⟨1, _⟩ => rfl
  have er : ∀ k : Fin 1024, ridx_main_v0 (ix2 r e) k = ix2 k e := fun k =>
    funext fun a => by match a with | ⟨0, _⟩ => rfl | ⟨1, _⟩ => rfl
  have eb : idx_main_v1 (idx_main_v2 (ix2 r e)) = ix1 e :=
    funext fun a => by match a with | ⟨0, _⟩ => rfl
  rw [val_main_v3_apply, val_main_v0_apply, val_main_v2_apply, val_main_v1_apply, eb]
  simp only [el, er, Ideal.addf_def]
  rfl

/-- The key projection at row `r`, column `e`. -/
theorem v7_ix (x : TX) (W : TW) (b : TB) (r : Fin 4096) (e : Fin 1024) :
    val_main_v7 (F := Ideal) x W b (ix2 r e) = proj x W b r e := by
  have el : ∀ k : Fin 1024, lidx_main_v4 (ix2 r e) k = ix2 r k := fun k =>
    funext fun a => by match a with | ⟨0, _⟩ => rfl | ⟨1, _⟩ => rfl
  have er : ∀ k : Fin 1024, ridx_main_v4 (ix2 r e) k = ix2 k e := fun k =>
    funext fun a => by match a with | ⟨0, _⟩ => rfl | ⟨1, _⟩ => rfl
  have eb : idx_main_v5 (idx_main_v6 (ix2 r e)) = ix1 e :=
    funext fun a => by match a with | ⟨0, _⟩ => rfl
  rw [val_main_v7_apply, val_main_v4_apply, val_main_v6_apply, val_main_v5_apply, eb]
  simp only [el, er, Ideal.addf_def]
  rfl

/-- The value projection at row `r`, column `e`. -/
theorem v11_ix (x : TX) (W : TW) (b : TB) (r : Fin 4096) (e : Fin 1024) :
    val_main_v11 (F := Ideal) x W b (ix2 r e) = proj x W b r e := by
  have el : ∀ k : Fin 1024, lidx_main_v8 (ix2 r e) k = ix2 r k := fun k =>
    funext fun a => by match a with | ⟨0, _⟩ => rfl | ⟨1, _⟩ => rfl
  have er : ∀ k : Fin 1024, ridx_main_v8 (ix2 r e) k = ix2 k e := fun k =>
    funext fun a => by match a with | ⟨0, _⟩ => rfl | ⟨1, _⟩ => rfl
  have eb : idx_main_v9 (idx_main_v10 (ix2 r e)) = ix1 e :=
    funext fun a => by match a with | ⟨0, _⟩ => rfl
  rw [val_main_v11_apply, val_main_v8_apply, val_main_v10_apply, val_main_v9_apply, eb]
  simp only [el, er, Ideal.addf_def]
  rfl

/-! ## The scaled scores -/

/-- The scaled score of key row `j` for query row `r`: tanh of the inner product of the two projected rows, times 2⁻⁵. -/
def score (x : TX) (Wq : TW) (bq : TB) (Wk : TW) (bk : TB) (r j : Fin 4096) : EReal :=
  Ideal.tanh (∑ e : Fin 1024, proj x Wq bq r e * proj x Wk bk j e) * scale

/-- The product of the queries with the transposed keys at (r, j) is the inner product of query row r and key row j. -/
theorem v13_ix (x : TX) (Wq : TW) (bq : TB) (Wk : TW) (bk : TB) (r j : Fin 4096) :
    val_main_v13 (F := Ideal) x Wq bq Wk bk (ix2 r j) = ∑ e : Fin 1024, proj x Wq bq r e * proj x Wk bk j e := by
  rw [val_main_v13_apply]
  refine Finset.sum_congr rfl fun e _ => ?_
  have el : lidx_main_v13 (ix2 r j) e = ix2 r e :=
    funext fun a => by match a with | ⟨0, _⟩ => rfl | ⟨1, _⟩ => rfl
  have er : idx_main_v12 (ridx_main_v13 (ix2 r j) e) = ix2 j e :=
    funext fun a => by match a with | ⟨0, _⟩ => rfl | ⟨1, _⟩ => rfl
  rw [val_main_v12_apply, el, er, v3_ix, v7_ix]

/-- The reference's scaled scores: its scale 1 / √1024 is the word for 2⁻⁵. -/
theorem v18_ix (x : TX) (Wq : TW) (bq : TB) (Wk : TW) (bk : TB) (r j : Fin 4096) :
    val_main_v18 (F := Ideal) x Wq bq Wk bk (ix2 r j) = score x Wq bq Wk bk r j := by
  rw [val_main_v18_apply, val_main_v14_apply, v13_ix, val_main_v17_apply, val_main_v16_apply, val_main_cst_0_apply,
    val_main_v15_apply, val_main_cst_apply]
  simp only [Ideal.mulf_def, Ideal.hostUnary_tanh_def, Ideal.hostDivf_def, Ideal.hostUnary_sqrt_def, Ideal.ofBits_def]
  rw [scale_eq]
  rfl

/-! ## The row maximum is a real number -/

/-- Column `k` put back into row `r` of the square score array is (r, k). -/
theorem lift_row (h : S4096x4096.Reduces [1] S4096) (r : Fin 4096) (k : Fin (S4096x4096.size 1)) :
    h.lift (ix1 r) k = ix2 r (⟨k.val, k.isLt⟩ : Fin 4096) := by
  funext c; apply Fin.ext
  match c with
  | ⟨0, _⟩ => rfl
  | ⟨1, _⟩ => rfl

/-- With real scores in row `r`, the softmax's shift for that row — the maximum with −∞ of the row's maximum from −∞ — is real. -/
theorem v21_real (x : TX) (Wq : TW) (bq : TB) (Wk : TW) (bk : TB) (r : Fin 4096)
    (hs : ∀ j, ∃ q : ℝ, score x Wq bq Wk bk r j = (q : EReal)) :
    ∃ m : ℝ, val_main_v21 (F := Ideal) x Wq bq Wk bk (ix1 r) = (m : EReal) := by
  have hy : ∀ j : Fin 4096, ∃ q : ℝ, val_main_v18 (F := Ideal) x Wq bq Wk bk (ix2 r j) = (q : EReal) := fun j => by
    rw [v18_ix]; exact hs j
  rw [val_main_v21_apply, val_main_v20_apply, val_main_cst_2_apply]
  unfold val_main_v19
  generalize val_main_v18 (F := Ideal) x Wq bq Wk bk = y at hy ⊢
  have hred : S4096x4096.Reduces [1] S4096 := by decide
  have hfold := Host.reduce_eq_fold_single (FloatOps.maximumf (F := Ideal) (φ := .f32)) y (val_main_cst_1 (F := Ideal))
    reducesTo_S4096x4096_S4096_d1 hred h_S_ (ix1 r)
  rw [hfold, val_main_cst_1_apply]
  simp only [Ideal.ofBits_def, ofBits_neg_inf, Ideal.maximumf_def]
  obtain ⟨m, hm⟩ := fold_max_real (Finset.univ : Finset (Fin (S4096x4096.size 1))) ⟨⟨0, by decide⟩, Finset.mem_univ _⟩
    (y ∘ hred.lift (ix1 r)) (fun k => by
      show ∃ q : ℝ, y (hred.lift (ix1 r) k) = (q : EReal)
      rw [lift_row]; exact hy _)
  refine ⟨m, ?_⟩
  exact (congrArg (max ⊥) hm).trans (max_eq_right bot_le)

/-! ## The softmax and the result -/

/-- The exponential of the shifted score at (r, k), the shift being whatever the row's shift is. -/
theorem v25_ix (x : TX) (Wq : TW) (bq : TB) (Wk : TW) (bk : TB) (r k : Fin 4096) (m : EReal)
    (hm : val_main_v21 (F := Ideal) x Wq bq Wk bk (ix1 r) = m) :
    val_main_v25 (F := Ideal) x Wq bq Wk bk (ix2 r k) = Ideal.exp (score x Wq bq Wk bk r k - m) := by
  have e : idx_main_v22 (idx_main_v23 (ix2 r k)) = ix1 r :=
    funext fun a => by match a with | ⟨0, _⟩ => rfl
  rw [val_main_v25_apply, val_main_v24_apply, v18_ix, val_main_v23_apply, val_main_v22_apply, e, hm]
  simp only [Ideal.hostUnary_exp_def, Ideal.subf_def]

/-- The softmax's denominator, broadcast along row `r`: the sum over the row of the exponentials, from the word for 0. -/
theorem v28_ix (x : TX) (Wq : TW) (bq : TB) (Wk : TW) (bk : TB) (r k : Fin 4096) (m : EReal)
    (hm : val_main_v21 (F := Ideal) x Wq bq Wk bk (ix1 r) = m) :
    val_main_v28 (F := Ideal) x Wq bq Wk bk (ix2 r k) = ∑ j : Fin 4096, Ideal.exp (score x Wq bq Wk bk r j - m) := by
  have e : idx_main_v27 (idx_main_v28 (ix2 r k)) = ix1 r :=
    funext fun a => by match a with | ⟨0, _⟩ => rfl
  have e' : ∀ j : Fin 4096, idx_main_v26 (ix1 r) j = ix2 r j := fun j =>
    funext fun a => by match a with | ⟨0, _⟩ => rfl | ⟨1, _⟩ => rfl
  rw [val_main_v28_apply, val_main_v27_apply, e, val_main_v26_apply, val_main_cst_3_apply]
  simp only [e', fun j => v25_ix x Wq bq Wk bk r j m hm, Ideal.ofBits_def, Ideal.ofBits_zero_f32, zero_add]

/-- The reference is the attention function of the specification on real arguments. -/
theorem ref_eq (x : TX) (Wq : TW) (bq : TB) (Wk : TW) (bk : TB) (Wv : TW) (bv : TB)
    (hx : AllReal x) (hWq : AllReal Wq) (hbq : AllReal bq) (hWk : AllReal Wk) (hbk : AllReal bk) (hWv : AllReal Wv)
    (hbv : AllReal bv) :
    val_main_v30 (F := Ideal) x Wq bq Wk bk Wv bv = G x Wq bq Wk bk Wv bv := by
  funext i
  obtain ⟨r, d, rfl⟩ : ∃ (r : Fin 4096) (d : Fin 1024), i = ix2 r d := ⟨i 0, i 1, eq_ix2 i⟩
  have hs : ∀ j, ∃ q : ℝ, score x Wq bq Wk bk r j = (q : EReal) :=
    fun j => score_real (proj_real hx hWq hbq) (proj_real hx hWk hbk) r j
  obtain ⟨m, hm⟩ := v21_real x Wq bq Wk bk r hs
  have hterm : ∀ k : Fin 4096,
      val_main_v29 (F := Ideal) x Wq bq Wk bk (lidx_main_v30 (ix2 r d) k) * val_main_v11 (F := Ideal) x Wv bv (ridx_main_v30 (ix2 r d) k)
        = Ideal.div (Ideal.exp (score x Wq bq Wk bk r k - (m : EReal)))
            (∑ j : Fin 4096, Ideal.exp (score x Wq bq Wk bk r j - (m : EReal))) * proj x Wv bv k d := fun k => by
    have el : lidx_main_v30 (ix2 r d) k = ix2 r k :=
      funext fun a => by match a with | ⟨0, _⟩ => rfl | ⟨1, _⟩ => rfl
    have er : ridx_main_v30 (ix2 r d) k = ix2 k d :=
      funext fun a => by match a with | ⟨0, _⟩ => rfl | ⟨1, _⟩ => rfl
    rw [el, er, v11_ix, val_main_v29_apply, v25_ix x Wq bq Wk bk r k m hm, v28_ix x Wq bq Wk bk r k m hm]
    rfl
  haveI : Nonempty (Fin 4096) := ⟨⟨0, by decide⟩⟩
  rw [val_main_v30_apply, Finset.sum_congr rfl fun k _ => hterm k]
  exact softmax_shift (fun j => score x Wq bq Wk bk r j) (fun j => proj x Wv bv j d) (m : EReal) hs
    (fun j => proj_real hx hWv hbv j d) ⟨m, rfl⟩

end Cert.RefValue

end
-- ==== Proof.Finite.lean ====
/-
  Finiteness from the precondition, at the extended reals.
  The precondition says of each of the seven argument arrays that every entry's absolute value is below +∞; an extended
  real with that property is neither +∞ nor −∞ (nor the junk value, which is −∞ here), so it is a real number.
-/
import proofs.«133326_j50199577756108_2_alg».proof.Defs
import proofs.«133326_j50199577756108_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal

set_option maxRecDepth 16384

noncomputable section

namespace Cert.Finite

open Idealize.ShloMosaic Idealize.ShloMosaic.ValueIdx Idealize.SL.Sem
open Cert.Pre_finite_inputs

/-- The scalar shape has one index. -/
instance subsingleton_scalar_idx : Subsingleton S_.Idx := ⟨fun a b => funext fun d => d.elim0⟩

/-- The single-precision pattern with all exponent bits set and no fraction bit denotes +∞. -/
theorem inf_bits : Ideal.ofBits .f32 0x7F800000#32 = (⊤ : EReal) := by
  simp [Ideal.ofBits, Ideal.ieee]

/-- An extended real whose absolute value max x (−x) is strictly below +∞ is a real number. -/
theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- One conjunct of the precondition: if the conjunction over all entries of |x| < +∞ holds, every entry is real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1)
    (i : s.Idx) : ∃ r : ℝ, x i = (r : EReal) :=
  real_of_abs_lt_inf (x i) (Host.reduce_andi_all _ _ hr hu ix0 e i)

/-- Under the precondition every entry of every argument array, on every core, is a real number. -/
theorem of_pre [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) := by
  have e := congrFun (h c) ix0
  dsimp only [Cert.Pre_finite_inputs.fn, Cert.Pre_finite_inputs.fn_part1] at e
  simp only [andi, IntOp.andi_eq_one] at e
  obtain ⟨⟨⟨⟨⟨⟨e0, e1⟩, e2⟩, e3⟩, e4⟩, e5⟩, e6⟩ := e
  exact ⟨fun i => all_real (s := S4096x1024) _ _ _ _ e0 i, fun i => all_real (s := S1024x1024) _ _ _ _ e1 i,
    fun i => all_real (s := S1024) _ _ _ _ e2 i, fun i => all_real (s := S1024x1024) _ _ _ _ e3 i,
    fun i => all_real (s := S1024) _ _ _ _ e4 i, fun i => all_real (s := S1024x1024) _ _ _ _ e5 i,
    fun i => all_real (s := S1024) _ _ _ _ e6 i⟩

end Cert.Finite

end
-- ==== Proof.lean ====
/-
  The five claims. The two kernel frames are the run of @main read at the argument arrays; the reference's frame is
  its run with the result dropped; the idealization rewrote nothing; and at the ideal instance both programs end with
  the specification's function G of the argument arrays — the kernel by its run read at the result array, the
  reference by its operations read index by index, where the softmax's row maximum cancels because every entry
  of a finite input's projections is a real number.
-/
import proofs.«133326_j50199577756108_2_alg».proof.Defs
import proofs.«133326_j50199577756108_2_alg».proof.Proof.Gen.Kernel
import proofs.«133326_j50199577756108_2_alg».proof.Proof.Gen.KernelIdeal
import proofs.«133326_j50199577756108_2_alg».proof.Proof.Gen.ReferenceIdeal
import proofs.«133326_j50199577756108_2_alg».proof.Proof.Gen.Pre_finite_inputs
import proofs.«133326_j50199577756108_2_alg».proof.Proof.Gen.ReferenceIdeal.Run
import proofs.«133326_j50199577756108_2_alg».proof.Proof.Gen.ReferenceIdeal.Read
import proofs.«133326_j50199577756108_2_alg».proof.Proof.K.Run
import proofs.«133326_j50199577756108_2_alg».proof.Proof.KI.Run
import proofs.«133326_j50199577756108_2_alg».proof.Proof.KI.KernelValue
import proofs.«133326_j50199577756108_2_alg».proof.Proof.RefValue
import proofs.«133326_j50199577756108_2_alg».proof.Proof.Finite
import proofs.«133326_j50199577756108_2_alg».proof.Proof.Spec
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  Cert.Kernel.Hand.frame (F := Bits) m ρ

theorem frame_ki : Cert.frame_KernelIdeal (hKernelIdeal := Cert.KernelIdeal.Gen.facts) (hPre_finite_inputs := Cert.Pre_finite_inputs.Gen.facts) := fun m ρ _ =>
  Cert.KernelIdeal.Hand.frame (F := Ideal) m ρ

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal.Hand in
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ?_) (run_all (F := Ideal) m ρ)
    exact ⟨(h c _ (mem_uc Cert.KernelIdeal.main_v8 (by decide))).trans (Cert.KernelIdeal.HandValue.kernel_result m ρ c),
      (h c _ (mem_uc Cert.KernelIdeal.main_arg0 (by decide))).trans (W3_main_arg0 m ρ c),
      (h c _ (mem_uc Cert.KernelIdeal.main_arg1 (by decide))).trans (W3_main_arg1 m ρ c),
      (h c _ (mem_uc Cert.KernelIdeal.main_arg2 (by decide))).trans (W3_main_arg2 m ρ c),
      (h c _ (mem_uc Cert.KernelIdeal.main_arg3 (by decide))).trans (W3_main_arg3 m ρ c),
      (h c _ (mem_uc Cert.KernelIdeal.main_arg4 (by decide))).trans (W3_main_arg4 m ρ c),
      (h c _ (mem_uc Cert.KernelIdeal.main_arg5 (by decide))).trans (W3_main_arg5 m ρ c),
      (h c _ (mem_uc Cert.KernelIdeal.main_arg6 (by decide))).trans (W3_main_arg6 m ρ c)⟩
  · refine (θ_run Cert.ReferenceIdeal.defs _ _).mono (fun r h c => ⟨?_, (h c).2⟩) (Cert.ReferenceIdeal.Value.run (F := Ideal) m' ρ')
    obtain ⟨f0, f1, f2, f3, f4, f5, f6⟩ := Cert.Finite.of_pre m hpre c
    obtain ⟨a0, a1, a2, a3, a4, a5, a6⟩ := hagree c
    rw [(h c).1, Cert.ReferenceIdeal.Read.val_main_v30_eq, a0, a1, a2, a3, a4, a5, a6]
    exact Cert.RefValue.ref_eq _ _ _ _ _ _ _ f0 f1 f2 f3 f4 f5 f6

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
